-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S65536x128 : Shape := ⟨2, ![65536, 128]⟩
abbrev S65536x512 : Shape := ⟨2, ![65536, 512]⟩
abbrev S65536x64 : Shape := ⟨2, ![65536, 64]⟩
abbrev S65536x32 : Shape := ⟨2, ![65536, 32]⟩
abbrev S65536x16 : Shape := ⟨2, ![65536, 16]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_
  bcast_S_S65536x128 : S_.BroadcastsInDim S65536x128 (![] : Fin 0 → Fin S65536x128.rank)
  reducesTo_S65536x128_S_d0_1 : S65536x128.ReducesTo [0, 1] S_
  bcast_S_S65536x512 : S_.BroadcastsInDim S65536x512 (![] : Fin 0 → Fin S65536x512.rank)
  reducesTo_S65536x512_S_d0_1 : S65536x512.ReducesTo [0, 1] S_
  bcast_S_S65536x64 : S_.BroadcastsInDim S65536x64 (![] : Fin 0 → Fin S65536x64.rank)
  reducesTo_S65536x64_S_d0_1 : S65536x64.ReducesTo [0, 1] S_
  bcast_S_S65536x32 : S_.BroadcastsInDim S65536x32 (![] : Fin 0 → Fin S65536x32.rank)
  reducesTo_S65536x32_S_d0_1 : S65536x32.ReducesTo [0, 1] S_
  bcast_S_S65536x16 : S_.BroadcastsInDim S65536x16 (![] : Fin 0 → Fin S65536x16.rank)
  reducesTo_S65536x16_S_d0_1 : S65536x16.ReducesTo [0, 1] S_

variable [Facts]

def fn_part7 {F : FTy → Type} [FloatOps F] (main_arg25 : FVec F S65536x32 .f32) (main_arg26 : FVec F S65536x16 .f32) (main_v118 : IVec S_ 1) (main_v119 : FVec F S65536x64 .f32) : IVec S_ 1 :=
  let main_cst_46 : FVec F S_ .f32 := constant S_ .f32 0x7F800000#32
  let main_v120 : FVec F S65536x64 .f32 := broadcastInDim S65536x64 ![] bcast_S_S65536x64 main_cst_46
  let main_v121 : IVec S65536x64 1 := cmpf .olt main_v119 main_v120
  let main_c_47 : IVec S_ 1 := constantI S_ 1 1#1
  let main_v122 : IVec S_ 1 := (fun x v => Host.reduce IntOp.andi x v reducesTo_S65536x64_S_d0_1 h_S_) main_v121 main_c_47
  let main_v123 : IVec S_ 1 := andi main_v118 main_v122
  let main_v124 : FVec F S65536x32 .f32 := Host.absf main_arg25
  let main_cst_48 : FVec F S_ .f32 := constant S_ .f32 0x7F800000#32
  let main_v125 : FVec F S65536x32 .f32 := broadcastInDim S65536x32 ![] bcast_S_S65536x32 main_cst_48
  let main_v126 : IVec S65536x32 1 := cmpf .olt main_v124 main_v125
  let main_c_49 : IVec S_ 1 := constantI S_ 1 1#1
  let main_v127 : IVec S_ 1 := (fun x v => Host.reduce IntOp.andi x v reducesTo_S65536x32_S_d0_1 h_S_) main_v126 main_c_49
  let main_v128 : IVec S_ 1 := andi main_v123 main_v127
  let main_v129 : FVec F S65536x16 .f32 := Host.absf main_arg26
  let main_cst_50 : FVec F S_ .f32 := constant S_ .f32 0x7F800000#32
  let main_v130 : FVec F S65536x16 .f32 := broadcastInDim S65536x16 ![] bcast_S_S65536x16 main_cst_50
  let main_v131 : IVec S65536x16 1 := cmpf .olt main_v129 main_v130
  let main_c_51 : IVec S_ 1 := constantI S_ 1 1#1
  let main_v132 : IVec S_ 1 := (fun x v => Host.reduce IntOp.andi x v reducesTo_S65536x16_S_d0_1 h_S_) main_v131 main_c_51
  let main_v133 : IVec S_ 1 := andi main_v128 main_v132
  main_v133

def fn_part6 {F : FTy → Type} [FloatOps F] (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v98 : IVec S_ 1) (main_v101 : IVec S65536x256 1) (main_c_39 : IVec S_ 1) : IVec S_ 1 :=
  let main_v102 : IVec S_ 1 := (fun x v => Host.reduce IntOp.andi x v reducesTo_S65536x256_S_d0_1 h_S_) main_v101 main_c_39
  let main_v103 : IVec S_ 1 := andi main_v98 main_v102
  let main_v104 : FVec F S65536x512 .f32 := Host.absf main_arg21
  let main_cst_40 : FVec F S_ .f32 := constant S_ .f32 0x7F800000#32
  let main_v105 : FVec F S65536x512 .f32 := broadcastInDim S65536x512 ![] bcast_S_S65536x512 main_cst_40
  let main_v106 : IVec S65536x512 1 := cmpf .olt main_v104 main_v105
  let main_c_41 : IVec S_ 1 := constantI S_ 1 1#1
  let main_v107 : IVec S_ 1 := (fun x v => Host.reduce IntOp.andi x v reducesTo_S65536x512_S_d0_1 h_S_) main_v106 main_c_41
  let main_v108 : IVec S_ 1 := andi main_v103 main_v107
  let main_v109 : FVec F S65536x256 .f32 := Host.absf main_arg22
  let main_cst_42 : FVec F S_ .f32 := constant S_ .f32 0x7F800000#32
  let main_v110 : FVec F S65536x256 .f32 := broadcastInDim S65536x256 ![] bcast_S_S65536x256 main_cst_42
  let main_v111 : IVec S65536x256 1 := cmpf .olt main_v109 main_v110
  let main_c_43 : IVec S_ 1 := constantI S_ 1 1#1
  let main_v112 : IVec S_ 1 := (fun x v => Host.reduce IntOp.andi x v reducesTo_S65536x256_S_d0_1 h_S_) main_v111 main_c_43
  let main_v113 : IVec S_ 1 := andi main_v108 main_v112
  let main_v114 : FVec F S65536x128 .f32 := Host.absf main_arg23
  let main_cst_44 : FVec F S_ .f32 := constant S_ .f32 0x7F800000#32
  let main_v115 : FVec F S65536x128 .f32 := broadcastInDim S65536x128 ![] bcast_S_S65536x128 main_cst_44
  let main_v116 : IVec S65536x128 1 := cmpf .olt main_v114 main_v115
  let main_c_45 : IVec S_ 1 := constantI S_ 1 1#1
  let main_v117 : IVec S_ 1 := (fun x v => Host.reduce IntOp.andi x v reducesTo_S65536x128_S_d0_1 h_S_) main_v116 main_c_45
  let main_v118 : IVec S_ 1 := andi main_v113 main_v117
  let main_v119 : FVec F S65536x64 .f32 := Host.absf main_arg24
  fn_part7 (F := F) main_arg25 main_arg26 main_v118 main_v119

def fn_part5 {F : FTy → Type} [FloatOps F] (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v83 : IVec S_ 1) (main_v84 : FVec F S16x10 .f32) (main_cst_32 : FVec F S_ .f32) : IVec S_ 1 :=
  let main_v85 : FVec F S16x10 .f32 := broadcastInDim S16x10 ![] bcast_S_S16x10 main_cst_32
  let main_v86 : IVec S16x10 1 := cmpf .olt main_v84 main_v85
  let main_c_33 : IVec S_ 1 := constantI S_ 1 1#1
  let main_v87 : IVec S_ 1 := (fun x v => Host.reduce IntOp.andi x v reducesTo_S16x10_S_d0_1 h_S_) main_v86 main_c_33
  let main_v88 : IVec S_ 1 := andi main_v83 main_v87
  let main_v89 : FVec F S10 .f32 := Host.absf main_arg18
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S65536x128 .f32 := Host.absf main_arg19
  let main_cst_36 : FVec F S_ .f32 := constant S_ .f32 0x7F800000#32
  let main_v95 : FVec F S65536x128 .f32 := broadcastInDim S65536x128 ![] bcast_S_S65536x128 main_cst_36
  let main_v96 : IVec S65536x128 1 := cmpf .olt main_v94 main_v95
  let main_c_37 : IVec S_ 1 := constantI S_ 1 1#1
  let main_v97 : IVec S_ 1 := (fun x v => Host.reduce IntOp.andi x v reducesTo_S65536x128_S_d0_1 h_S_) main_v96 main_c_37
  let main_v98 : IVec S_ 1 := andi main_v93 main_v97
  let main_v99 : FVec F S65536x256 .f32 := Host.absf main_arg20
  let main_cst_38 : FVec F S_ .f32 := constant S_ .f32 0x7F800000#32
  let main_v100 : FVec F S65536x256 .f32 := broadcastInDim S65536x256 ![] bcast_S_S65536x256 main_cst_38
  let main_v101 : IVec S65536x256 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S32 .f32) (main_arg15 : FVec F S32x16 .f32) (main_arg16 : FVec F S16 .f32) (main_arg17 : FVec F S16x10 .f32) (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x16 .f32 := Host.absf main_arg15
  let main_cst_28 : FVec F S_ .f32 := constant S_ .f32 0x7F800000#32
  let main_v75 : FVec F S32x16 .f32 := broadcastInDim S32x16 ![] bcast_S_S32x16 main_cst_28
  let main_v76 : IVec S32x16 1 := cmpf .olt main_v74 main_v75
  let main_c_29 : IVec S_ 1 := constantI S_ 1 1#1
  let main_v77 : IVec S_ 1 := (fun x v => Host.reduce IntOp.andi x v reducesTo_S32x16_S_d0_1 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x10 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S128x64 .f32) (main_arg12 : FVec F S64 .f32) (main_arg13 : FVec F S64x32 .f32) (main_arg14 : FVec F S32 .f32) (main_arg15 : FVec F S32x16 .f32) (main_arg16 : FVec F S16 .f32) (main_arg17 : FVec F S16x10 .f32) (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg13
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S512x256 .f32) (main_arg8 : FVec F S256 .f32) (main_arg9 : FVec F S256x128 .f32) (main_arg10 : FVec F S128 .f32) (main_arg11 : FVec F S128x64 .f32) (main_arg12 : FVec F S64 .f32) (main_arg13 : FVec F S64x32 .f32) (main_arg14 : FVec F S32 .f32) (main_arg15 : FVec F S32x16 .f32) (main_arg16 : FVec F S16 .f32) (main_arg17 : FVec F S16x10 .f32) (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S256 .f32) (main_arg5 : FVec F S256x512 .f32) (main_arg6 : FVec F S512 .f32) (main_arg7 : FVec F S512x256 .f32) (main_arg8 : FVec F S256 .f32) (main_arg9 : FVec F S256x128 .f32) (main_arg10 : FVec F S128 .f32) (main_arg11 : FVec F S128x64 .f32) (main_arg12 : FVec F S64 .f32) (main_arg13 : FVec F S64x32 .f32) (main_arg14 : FVec F S32 .f32) (main_arg15 : FVec F S32x16 .f32) (main_arg16 : FVec F S16 .f32) (main_arg17 : FVec F S16x10 .f32) (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S65536x256 .f32) (main_arg1 : FVec F S256x128 .f32) (main_arg2 : FVec F S128 .f32) (main_arg3 : FVec F S128x256 .f32) (main_arg4 : FVec F S256 .f32) (main_arg5 : FVec F S256x512 .f32) (main_arg6 : FVec F S512 .f32) (main_arg7 : FVec F S512x256 .f32) (main_arg8 : FVec F S256 .f32) (main_arg9 : FVec F S256x128 .f32) (main_arg10 : FVec F S128 .f32) (main_arg11 : FVec F S128x64 .f32) (main_arg12 : FVec F S64 .f32) (main_arg13 : FVec F S64x32 .f32) (main_arg14 : FVec F S32 .f32) (main_arg15 : FVec F S32x16 .f32) (main_arg16 : FVec F S16 .f32) (main_arg17 : FVec F S16x10 .f32) (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S65536x256 : Shape := ⟨2, ![65536, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S65536x128 : Shape := ⟨2, ![65536, 128]⟩
abbrev S65536x512 : Shape := ⟨2, ![65536, 512]⟩
abbrev S65536x64 : Shape := ⟨2, ![65536, 64]⟩
abbrev S65536x32 : Shape := ⟨2, ![65536, 32]⟩
abbrev S65536x16 : Shape := ⟨2, ![65536, 16]⟩
abbrev S65536x10 : Shape := ⟨2, ![65536, 10]⟩
abbrev S2048x256 : Shape := ⟨2, ![2048, 256]⟩
abbrev S2048x128 : Shape := ⟨2, ![2048, 128]⟩
abbrev S2048x512 : Shape := ⟨2, ![2048, 512]⟩
abbrev S2048x64 : Shape := ⟨2, ![2048, 64]⟩
abbrev S2048x32 : Shape := ⟨2, ![2048, 32]⟩
abbrev S2048x16 : Shape := ⟨2, ![2048, 16]⟩
abbrev S2048x10 : Shape := ⟨2, ![2048, 10]⟩
abbrev S1x128 : Shape := ⟨2, ![1, 128]⟩
abbrev S1x256 : Shape := ⟨2, ![1, 256]⟩
abbrev S1x512 : Shape := ⟨2, ![1, 512]⟩
abbrev S1x64 : Shape := ⟨2, ![1, 64]⟩
abbrev S1x32 : Shape := ⟨2, ![1, 32]⟩
abbrev S1x16 : Shape := ⟨2, ![1, 16]⟩
abbrev S1x10 : Shape := ⟨2, ![1, 10]⟩

abbrev nBuf : Space → Nat
  | .hbm => 37
  | .vmem => 38
  | .smem => 0
  | _ => 0

abbrev bufTy : (tb : Table) → Fin (tcTables nBuf tb) → BufTy
  | .hbm, ⟨0, _⟩ => ⟨S65536x256, .f32⟩
  | .hbm, ⟨1, _⟩ => ⟨S256x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x16, .f32⟩
  | .hbm, ⟨16, _⟩ => ⟨S16, .f32⟩
  | .hbm, ⟨17, _⟩ => ⟨S16x10, .f32⟩
  | .hbm, ⟨18, _⟩ => ⟨S10, .f32⟩
  | .hbm, ⟨19, _⟩ => ⟨S65536x128, .f32⟩
  | .hbm, ⟨20, _⟩ => ⟨S65536x256, .f32⟩
  | .hbm, ⟨21, _⟩ => ⟨S65536x512, .f32⟩
  | .hbm, ⟨22, _⟩ => ⟨S65536x256, .f32⟩
  | .hbm, ⟨23, _⟩ => ⟨S65536x128, .f32⟩
  | .hbm, ⟨24, _⟩ => ⟨S65536x64, .f32⟩
  | .hbm, ⟨25, _⟩ => ⟨S65536x32, .f32⟩
  | .hbm, ⟨26, _⟩ => ⟨S65536x16, .f32⟩
  | .hbm, ⟨27, _⟩ => ⟨S256x128, .bf16⟩
  | .hbm, ⟨28, _⟩ => ⟨S128x256, .bf16⟩
  | .hbm, ⟨29, _⟩ => ⟨S256x512, .bf16⟩
  | .hbm, ⟨30, _⟩ => ⟨S512x256, .bf16⟩
  | .hbm, ⟨31, _⟩ => ⟨S256x128, .bf16⟩
  | .hbm, ⟨32, _⟩ => ⟨S128x64, .bf16⟩
  | .hbm, ⟨33, _⟩ => ⟨S64x32, .bf16⟩
  | .hbm, ⟨34, _⟩ => ⟨S32x16, .bf16⟩
  | .hbm, ⟨35, _⟩ => ⟨S16x10, .bf16⟩
  | .hbm, ⟨36, _⟩ => ⟨S65536x10, .f32⟩
  | .local _ .vmem, ⟨0, _⟩ => ⟨S2048x256, .f32⟩
  | .local _ .vmem, ⟨1, _⟩ => ⟨S2048x256, .f32⟩
  | .local _ .vmem, ⟨2, _⟩ => ⟨S256x128, .bf16⟩
  | .local _ .vmem, ⟨3, _⟩ => ⟨S128, .f32⟩
  | .local _ .vmem, ⟨4, _⟩ => ⟨S128x256, .bf16⟩
  | .local _ .vmem, ⟨5, _⟩ => ⟨S256, .f32⟩
  | .local _ .vmem, ⟨6, _⟩ => ⟨S256x512, .bf16⟩
  | .local _ .vmem, ⟨7, _⟩ => ⟨S512, .f32⟩
  | .local _ .vmem, ⟨8, _⟩ => ⟨S512x256, .bf16⟩
  | .local _ .vmem, ⟨9, _⟩ => ⟨S256, .f32⟩
  | .local _ .vmem, ⟨10, _⟩ => ⟨S256x128, .bf16⟩
  | .local _ .vmem, ⟨11, _⟩ => ⟨S128, .f32⟩
  | .local _ .vmem, ⟨12, _⟩ => ⟨S128x64, .bf16⟩
  | .local _ .vmem, ⟨13, _⟩ => ⟨S64, .f32⟩
  | .local _ .vmem, ⟨14, _⟩ => ⟨S64x32, .bf16⟩
  | .local _ .vmem, ⟨15, _⟩ => ⟨S32, .f32⟩
  | .local _ .vmem, ⟨16, _⟩ => ⟨S32x16, .bf16⟩
  | .local _ .vmem, ⟨17, _⟩ => ⟨S16, .f32⟩
  | .local _ .vmem, ⟨18, _⟩ => ⟨S16x10, .bf16⟩
  | .local _ .vmem, ⟨19, _⟩ => ⟨S10, .f32⟩
  | .local _ .vmem, ⟨20, _⟩ => ⟨S2048x128, .f32⟩
  | .local _ .vmem, ⟨21, _⟩ => ⟨S2048x128, .f32⟩
  | .local _ .vmem, ⟨22, _⟩ => ⟨S2048x256, .f32⟩
  | .local _ .vmem, ⟨23, _⟩ => ⟨S2048x256, .f32⟩
  | .local _ .vmem, ⟨24, _⟩ => ⟨S2048x512, .f32⟩
  | .local _ .vmem, ⟨25, _⟩ => ⟨S2048x512, .f32⟩
  | .local _ .vmem, ⟨26, _⟩ => ⟨S2048x256, .f32⟩
  | .local _ .vmem, ⟨27, _⟩ => ⟨S2048x256, .f32⟩
  | .local _ .vmem, ⟨28, _⟩ => ⟨S2048x128, .f32⟩
  | .local _ .vmem, ⟨29, _⟩ => ⟨S2048x128, .f32⟩
  | .local _ .vmem, ⟨30, _⟩ => ⟨S2048x64, .f32⟩
  | .local _ .vmem, ⟨31, _⟩ => ⟨S2048x64, .f32⟩
  | .local _ .vmem, ⟨32, _⟩ => ⟨S2048x32, .f32⟩
  | .local _ .vmem, ⟨33, _⟩ => ⟨S2048x32, .f32⟩
  | .local _ .vmem, ⟨34, _⟩ => ⟨S2048x16, .f32⟩
  | .local _ .vmem, ⟨35, _⟩ => ⟨S2048x16, .f32⟩
  | .local _ .vmem, ⟨36, _⟩ => ⟨S2048x10, .f32⟩
  | .local _ .vmem, ⟨37, _⟩ => ⟨S2048x10, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_stg26_0 : Ref sig .tc := ⟨.vmem, 34, rfl⟩
abbrev cc0_stg26_1 : Ref sig .tc := ⟨.vmem, 35, rfl⟩
abbrev cc0_stg27_0 : Ref sig .tc := ⟨.vmem, 36, rfl⟩
abbrev cc0_stg27_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33
abbrev cc0_sem26_0 : DmaSem sig := 34
abbrev cc0_sem26_1 : DmaSem sig := 35
abbrev cc0_sem27_0 : DmaSem sig := 36
abbrev cc0_sem27_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x16 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x10 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S10 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S2048x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2048x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2048x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2048x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2048x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2048x64 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2048x32 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S2048x16 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2048x10 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S16_S16_0 : ∀ a, (![0] : Fin 1 → Nat) a + S16.size a ≤ S16.size a
  h_S16 : 0 < S16.numel
  shapeCasts_S16_S1x16 : S16.ShapeCasts S1x16
  broadcasts_S1x16_S2048x16 : S1x16.Broadcasts S2048x16
  inb_S2048x16_S2048x16_0_0 : ∀ a, (![0, 0] : Fin 2 → Nat) a + S2048x16.size a ≤ S2048x16.size a
  h_S2048x16 : 0 < S2048x16.numel
  inb_S16x10_S16x10_0_0 : ∀ a, (![0, 0] : Fin 2 → Nat) a + S16x10.size a ≤ S16x10.size a
  h_S16x10 : 0 < S16x10.numel
  shapeCasts_S16x10_S16x10 : S16x10.ShapeCasts S16x10
  inb_S10_S10_0 : ∀ a, (![0] : Fin 1 → Nat) a + S10.size a ≤ S10.size a
  h_S10 : 0 < S10.numel
  shapeCasts_S10_S1x10 : S10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  dot_S2048x256_S256x128_S2048x128_1_0_0_1_n_n_wf : DotDims.WF S2048x256 S256x128 S2048x128 [1] [0] [0] [1] [] []
  dot_S2048x128_S128x256_S2048x256_1_0_0_1_n_n_wf : DotDims.WF S2048x128 S128x256 S2048x256 [1] [0] [0] [1] [] []
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  dot_S2048x32_S32x16_S2048x16_1_0_0_1_n_n_wf : DotDims.WF S2048x32 S32x16 S2048x16 [1] [0] [0] [1] [] []
  dot_S2048x16_S16x10_S2048x10_1_0_0_1_n_n_wf : DotDims.WF S2048x16 S16x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .bf16 = 32 ∨ (Rect.block (s := S256x512) S256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .bf16 = 32 ∨ (Rect.block (s := S128x64) S128x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x32.size a ≤ S64x32.size a
  hwx0_13 : ∀ i : grid0.Coords, EltTy.bits .bf16 = 32 ∨ (Rect.block (s := S64x32) S64x32.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32.size a ≤ S32.size a
  hwx0_14 : ∀ i : grid0.Coords, EltTy.bits .f32 = 32 ∨ (Rect.block (s := S32) S32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x16.size a ≤ S32x16.size a
  hwx0_15 : ∀ i : grid0.Coords, EltTy.bits .bf16 = 32 ∨ (Rect.block (s := S32x16) S32x16.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16.size a ≤ S16.size a
  hwx0_16 : ∀ i : grid0.Coords, EltTy.bits .f32 = 32 ∨ (Rect.block (s := S16) S16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16x10.size a ≤ S16x10.size a
  hwx0_17 : ∀ i : grid0.Coords, EltTy.bits .bf16 = 32 ∨ (Rect.block (s := S16x10) S16x10.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S10.size a ≤ S10.size a
  hwx0_18 : ∀ i : grid0.Coords, EltTy.bits .f32 = 32 ∨ (Rect.block (s := S10) S10.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2048x128.size a ≤ S65536x128.size a
  hwx0_19 : ∀ i : grid0.Coords, EltTy.bits .f32 = 32 ∨ (Rect.block (s := S65536x128) S2048x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2048x256.size a ≤ S65536x256.size a
  hwx0_20 : ∀ i : grid0.Coords, EltTy.bits .f32 = 32 ∨ (Rect.block (s := S65536x256) S2048x256.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x512.size a ≤ S65536x512.size a
  hwx0_21 : ∀ i : grid0.Coords, EltTy.bits .f32 = 32 ∨ (Rect.block (s := S65536x512) S2048x512.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2048x256.size a ≤ S65536x256.size a
  hwx0_22 : ∀ i : grid0.Coords, EltTy.bits .f32 = 32 ∨ (Rect.block (s := S65536x256) S2048x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x128.size a ≤ S65536x128.size a
  hwx0_23 : ∀ i : grid0.Coords, EltTy.bits .f32 = 32 ∨ (Rect.block (s := S65536x128) S2048x128.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2048x64.size a ≤ S65536x64.size a
  hwx0_24 : ∀ i : grid0.Coords, EltTy.bits .f32 = 32 ∨ (Rect.block (s := S65536x64) S2048x64.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S2048x32.size a ≤ S65536x32.size a
  hwx0_25 : ∀ i : grid0.Coords, EltTy.bits .f32 = 32 ∨ (Rect.block (s := S65536x32) S2048x32.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S2048x16.size a ≤ S65536x16.size a
  hwx0_26 : ∀ i : grid0.Coords, EltTy.bits .f32 = 32 ∨ (Rect.block (s := S65536x16) S2048x16.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S2048x10.size a ≤ S65536x10.size a
  hwx0_27 : ∀ i : grid0.Coords, EltTy.bits .f32 = 32 ∨ (Rect.block (s := S65536x10) S2048x10.size (cc0_transform_27 i) (hinb0_27 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x10_S2048x10_1_0_0_1_n_n : DotDims S2048x16 S16x10 S2048x10 where
  lhsContracting := [1]
  rhsContracting := [0]
  lhsNonContracting := [0]
  rhsNonContracting := [1]
  lhsBatch := []
  rhsBatch := []
  wf := dot_S2048x16_S16x10_S2048x10_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S64x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S32x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v8) S16x10.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S10.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S2048x128.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S2048x256.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S2048x512.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S2048x256.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S2048x128.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S2048x64.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S2048x32.size cc0_transform_25 reads0_25 false false 2 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S2048x16.size cc0_transform_26 reads0_26 false false 2 stage0_26 sem0_26
    hrank0 hreads0_26 hinb0_26 nbuf0_26 (Memref.isWhole_whole _) hwx0_26 hstage0_26

abbrev win0_27 : Pipeline.Window sig grid0 :=
  Pipeline.Window.ofSpec (Memref.whole main_v9) S2048x10.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S65536x128 : Shape := ⟨2, ![65536, 128]⟩
abbrev S65536x512 : Shape := ⟨2, ![65536, 512]⟩
abbrev S65536x64 : Shape := ⟨2, ![65536, 64]⟩
abbrev S65536x32 : Shape := ⟨2, ![65536, 32]⟩
abbrev S65536x16 : Shape := ⟨2, ![65536, 16]⟩
abbrev S1x128 : Shape := ⟨2, ![1, 128]⟩
abbrev S_ : Shape := ⟨0, ![]⟩
abbrev S1x256 : Shape := ⟨2, ![1, 256]⟩
abbrev S1x512 : Shape := ⟨2, ![1, 512]⟩
abbrev S1x64 : Shape := ⟨2, ![1, 64]⟩
abbrev S1x32 : Shape := ⟨2, ![1, 32]⟩
abbrev S1x16 : Shape := ⟨2, ![1, 16]⟩
abbrev S65536x10 : Shape := ⟨2, ![65536, 10]⟩
abbrev S1x10 : Shape := ⟨2, ![1, 10]⟩

abbrev nBuf : Space → Nat
  | .hbm => 95
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x16, .f32⟩
  | .hbm, ⟨16, _⟩ => ⟨S16, .f32⟩
  | .hbm, ⟨17, _⟩ => ⟨S16x10, .f32⟩
  | .hbm, ⟨18, _⟩ => ⟨S10, .f32⟩
  | .hbm, ⟨19, _⟩ => ⟨S65536x128, .f32⟩
  | .hbm, ⟨20, _⟩ => ⟨S65536x256, .f32⟩
  | .hbm, ⟨21, _⟩ => ⟨S65536x512, .f32⟩
  | .hbm, ⟨22, _⟩ => ⟨S65536x256, .f32⟩
  | .hbm, ⟨23, _⟩ => ⟨S65536x128, .f32⟩
  | .hbm, ⟨24, _⟩ => ⟨S65536x64, .f32⟩
  | .hbm, ⟨25, _⟩ => ⟨S65536x32, .f32⟩
  | .hbm, ⟨26, _⟩ => ⟨S65536x16, .f32⟩
  | .hbm, ⟨27, _⟩ => ⟨S65536x128, .f32⟩
  | .hbm, ⟨28, _⟩ => ⟨S1x128, .f32⟩
  | .hbm, ⟨29, _⟩ => ⟨S65536x128, .f32⟩
  | .hbm, ⟨30, _⟩ => ⟨S65536x128, .f32⟩
  | .hbm, ⟨31, _⟩ => ⟨S_, .f32⟩
  | .hbm, ⟨32, _⟩ => ⟨S65536x128, .f32⟩
  | .hbm, ⟨33, _⟩ => ⟨S65536x128, .f32⟩
  | .hbm, ⟨34, _⟩ => ⟨S65536x128, .f32⟩
  | .hbm, ⟨35, _⟩ => ⟨S65536x256, .f32⟩
  | .hbm, ⟨36, _⟩ => ⟨S1x256, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x512, .f32⟩
  | .hbm, ⟨44, _⟩ => ⟨S1x512, .f32⟩
  | .hbm, ⟨45, _⟩ => ⟨S65536x512, .f32⟩
  | .hbm, ⟨46, _⟩ => ⟨S65536x512, .f32⟩
  | .hbm, ⟨47, _⟩ => ⟨S_, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S65536x256, .f32⟩
  | .hbm, ⟨52, _⟩ => ⟨S1x256, .f32⟩
  | .hbm, ⟨53, _⟩ => ⟨S65536x256, .f32⟩
  | .hbm, ⟨54, _⟩ => ⟨S65536x256, .f32⟩
  | .hbm, ⟨55, _⟩ => ⟨S_, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S65536x128, .f32⟩
  | .hbm, ⟨60, _⟩ => ⟨S1x128, .f32⟩
  | .hbm, ⟨61, _⟩ => ⟨S65536x128, .f32⟩
  | .hbm, ⟨62, _⟩ => ⟨S65536x128, .f32⟩
  | .hbm, ⟨63, _⟩ => ⟨S_, .f32⟩
  | .hbm, ⟨64, _⟩ => ⟨S65536x128, .f32⟩
  | .hbm, ⟨65, _⟩ => ⟨S65536x128, .f32⟩
  | .hbm, ⟨66, _⟩ => ⟨S65536x128, .f32⟩
  | .hbm, ⟨67, _⟩ => ⟨S65536x64, .f32⟩
  | .hbm, ⟨68, _⟩ => ⟨S1x64, .f32⟩
  | .hbm, ⟨69, _⟩ => ⟨S65536x64, .f32⟩
  | .hbm, ⟨70, _⟩ => ⟨S65536x64, .f32⟩
  | .hbm, ⟨71, _⟩ => ⟨S_, .f32⟩
  | .hbm, ⟨72, _⟩ => ⟨S65536x64, .f32⟩
  | .hbm, ⟨73, _⟩ => ⟨S65536x64, .f32⟩
  | .hbm, ⟨74, _⟩ => ⟨S65536x64, .f32⟩
  | .hbm, ⟨75, _⟩ => ⟨S65536x32, .f32⟩
  | .hbm, ⟨76, _⟩ => ⟨S1x32, .f32⟩
  | .hbm, ⟨77, _⟩ => ⟨S65536x32, .f32⟩
  | .hbm, ⟨78, _⟩ => ⟨S65536x32, .f32⟩
  | .hbm, ⟨79, _⟩ => ⟨S_, .f32⟩
  | .hbm, ⟨80, _⟩ => ⟨S65536x32, .f32⟩
  | .hbm, ⟨81, _⟩ => ⟨S65536x32, .f32⟩
  | .hbm, ⟨82, _⟩ => ⟨S65536x32, .f32⟩
  | .hbm, ⟨83, _⟩ => ⟨S65536x16, .f32⟩
  | .hbm, ⟨84, _⟩ => ⟨S1x16, .f32⟩
  | .hbm, ⟨85, _⟩ => ⟨S65536x16, .f32⟩
  | .hbm, ⟨86, _⟩ => ⟨S65536x16, .f32⟩
  | .hbm, ⟨87, _⟩ => ⟨S_, .f32⟩
  | .hbm, ⟨88, _⟩ => ⟨S65536x16, .f32⟩
  | .hbm, ⟨89, _⟩ => ⟨S65536x16, .f32⟩
  | .hbm, ⟨90, _⟩ => ⟨S65536x16, .f32⟩
  | .hbm, ⟨91, _⟩ => ⟨S65536x10, .f32⟩
  | .hbm, ⟨92, _⟩ => ⟨S1x10, .f32⟩
  | .hbm, ⟨93, _⟩ => ⟨S65536x10, .f32⟩
  | .hbm, ⟨94, _⟩ => ⟨S65536x10, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_call0_cst : Ref sig .tc := ⟨.hbm, 31, rfl⟩
abbrev main_call0_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_call1_cst : Ref sig .tc := ⟨.hbm, 39, rfl⟩
abbrev main_call1_v0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_call2_cst : Ref sig .tc := ⟨.hbm, 47, rfl⟩
abbrev main_call2_v0 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call3_cst : Ref sig .tc := ⟨.hbm, 55, rfl⟩
abbrev main_call3_v0 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_call4_cst : Ref sig .tc := ⟨.hbm, 63, rfl⟩
abbrev main_call4_v0 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call5_cst : Ref sig .tc := ⟨.hbm, 71, rfl⟩
abbrev main_call5_v0 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call6_cst : Ref sig .tc := ⟨.hbm, 79, rfl⟩
abbrev main_call6_v0 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call7_cst : Ref sig .tc := ⟨.hbm, 87, rfl⟩
abbrev main_call7_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  bcast_S_S65536x16 : S_.BroadcastsInDim S65536x16 (![] : Fin 0 → Fin S65536x16.rank)
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x256_S256x128_S65536x128_1_0_0_1_n_n_wf : DotDims.WF S65536x256 S256x128 S65536x128 [1] [0] [0] [1] [] []
  dot_S65536x128_S128x256_S65536x256_1_0_0_1_n_n_wf : DotDims.WF S65536x128 S128x256 S65536x256 [1] [0] [0] [1] [] []
  dot_S65536x256_S256x512_S65536x512_1_0_0_1_n_n_wf : DotDims.WF S65536x256 S256x512 S65536x512 [1] [0] [0] [1] [] []
  dot_S65536x512_S512x256_S65536x256_1_0_0_1_n_n_wf : DotDims.WF S65536x512 S512x256 S65536x256 [1] [0] [0] [1] [] []
  dot_S65536x128_S128x64_S65536x64_1_0_0_1_n_n_wf : DotDims.WF S65536x128 S128x64 S65536x64 [1] [0] [0] [1] [] []
  dot_S65536x64_S64x32_S65536x32_1_0_0_1_n_n_wf : DotDims.WF S65536x64 S64x32 S65536x32 [1] [0] [0] [1] [] []
  dot_S65536x32_S32x16_S65536x16_1_0_0_1_n_n_wf : DotDims.WF S65536x32 S32x16 S65536x16 [1] [0] [0] [1] [] []
  dot_S65536x16_S16x10_S65536x10_1_0_0_1_n_n_wf : DotDims.WF S65536x16 S16x10 S65536x10 [1] [0] [0] [1] [] []

variable [Facts₀]

def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x32_S32x16_S65536x16_1_0_0_1_n_n : DotDims S65536x32 S32x16 S65536x16 where
  lhsContracting := [1]
  rhsContracting := [0]
  lhsNonContracting := [0]
  rhsNonContracting := [1]
  lhsBatch := []
  rhsBatch := []
  wf := dot_S65536x32_S32x16_S65536x16_1_0_0_1_n_n_wf
def dot_S65536x16_S16x10_S65536x10_1_0_0_1_n_n : DotDims S65536x16 S16x10 S65536x10 where
  lhsContracting := [1]
  rhsContracting := [0]
  lhsNonContracting := [0]
  rhsNonContracting := [1]
  lhsBatch := []
  rhsBatch := []
  wf := dot_S65536x16_S16x10_S65536x10_1_0_0_1_n_n_wf

class Facts : Prop extends Facts₀ where

variable [Facts]
-- ==== Proof.LibDenseLayer.lean ====
/-
  Dense layers over the extended reals, read one output element at a time.

  A dense layer sends a row `h` (length `K`) to the row whose entry `n` is `∑ k, h k * W k n + b n`; a hidden layer
  then rectifies and masks it: entry `n` becomes `max y 0 * m n`.  This file states those row functions and proves, for
  any extents `R`, `K`, `N`, that the vector-level operations computing a layer on an `[R, K]` block —
  a matrix product into a zero accumulator (or a host dot product) over the plain `[R,K] × [K,N]` dimension numbers,
  a bias row broadcast over the rows, and either `select (y > 0) (y * m) 0` or `max y 0 * m` — read at entry `(p, q)`
  are the row function of row `p` of the operands, at `q`.  The two rectifier spellings agree on every extended real:
  for `y ≤ 0` both are `0` because `0 * m = 0` whatever `m` is.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.DenseLayer

/-! ## The row functions -/

/-- Entry `n` of a dense layer's output row: the input row against column `n` of the weights, plus the bias. -/
def dense {K N : ℕ} (h : Fin K → EReal) (W : Fin K → Fin N → EReal) (b : Fin N → EReal) : Fin N → EReal :=
  fun n => (∑ k : Fin K, h k * W k n) + b n

/-- Rectify, then scale by the mask entry. -/
def act (y m : EReal) : EReal := max y 0 * m

/-- A hidden layer's output row: dense, rectified, masked. -/
def layer {K N : ℕ} (h : Fin K → EReal) (W : Fin K → Fin N → EReal) (b : Fin N → EReal) (m : Fin N → EReal) :
    Fin N → EReal :=
  fun n => act (dense h W b n) (m n)

/-- Choosing `y * m` where `y > 0` and `0` elsewhere is `max y 0 * m`: where `y ≤ 0` the product `0 * m` is `0`. -/
theorem select_gt_eq_act (y m : EReal) : Scalar.select (Ideal.cmp .ogt y 0) (y * m) 0 = act y m := by
  unfold act Scalar.select Ideal.cmp
  by_cases h : (0 : EReal) < y
  · simp [h, max_eq_left h.le]
  · simp [h, max_eq_right (not_lt.mp h)]

/-! ## The plain matrix product read at an entry -/

/-- Over the plain dimension numbers the contraction index is the one coordinate `k`, the left operand is read at
    `(p, k)` and the right at `(k, q)`. -/
theorem plain_sum {M K N : ℕ} (a : (⟨2, ![M, K]⟩ : Shape).Idx → EReal) (b : (⟨2, ![K, N]⟩ : Shape).Idx → EReal)
    (p : Fin M) (q : Fin N) :
    ∑ k : (DotDims.plain M K N).contr.Idx,
        a ((DotDims.plain M K N).lhsIdx (ix2 p q) k) * b ((DotDims.plain M K N).rhsIdx (ix2 p q) k)
      = ∑ k : Fin K, a (ix2 p k) * b (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

/-- A matrix product into the zero accumulator, over dimension numbers that are the plain ones, at entry `(p, q)`. -/
theorem matmul_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (b : FVec Ideal ⟨2, ![K, N]⟩ φ₂) (p : Fin R) (q : Fin N) :
    matmul d prec a b (constant ⟨2, ![R, N]⟩ .f32 0x00000000#32) (ix2 p q) = ∑ k : Fin K, a (ix2 p k) * b (ix2 k q) := by
  subst hd
  show FloatOps.matmul _ prec a b (constant ⟨2, ![R, N]⟩ .f32 0x00000000#32) (ix2 p q) = _
  rw [Ideal.matmul_constant_zero_apply]
  exact plain_sum a b p q

/-- The host's dot product over the plain dimension numbers, at entry `(p, q)`. -/
theorem dotGeneral_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (b : FVec Ideal ⟨2, ![K, N]⟩ φ₂) (p : Fin R) (q : Fin N) :
    Host.dotGeneral d prec a b (ix2 p q) = ∑ k : Fin K, a (ix2 p k) * b (ix2 k q) := by
  subst hd
  simp only [Host.dotGeneral]
  rw [Ideal.dotGeneral_apply]
  exact plain_sum a b p q

/-! ## The bias row -/

/-- A bias vector cast to one row and broadcast over `R` rows reads `b q` at `(p, q)`. -/
theorem bias_rows_apply {α : Type} {R N : ℕ} (b : (⟨1, ![N]⟩ : Shape).Idx → α)
    (sc : (⟨1, ![N]⟩ : Shape).ShapeCasts ⟨2, ![1, N]⟩) (bc : (⟨2, ![1, N]⟩ : Shape).Broadcasts ⟨2, ![R, N]⟩)
    (p : Fin R) (q : Fin N) :
    broadcastTo ⟨2, ![R, N]⟩ (shapeCast ⟨2, ![1, N]⟩ b sc) bc (ix2 p q) = b (ix1 q) :=
  (broadcastTo_1b_ab_apply _ bc p q).trans (shapeCast_a_1a_apply b sc 0 q)

/-- The host's spelling: the vector placed on axis 1 of a one-row array, that row placed on both axes of the
    `[R, N]` array. -/
theorem bias_rows_host_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    broadcastInDim ⟨2, ![R, N]⟩ ![0, 1] h2 (broadcastInDim ⟨2, ![1, N]⟩ ![1] h1 b) (ix2 p q) = b (ix1 q) := by
  have hq : q.val = if N = 1 then 0 else q.val := by
    split
    · have := q.isLt; omega
    · rfl
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ => exact hq
  · match a with
    | ⟨0, _⟩ => exact hq

/-! ## Rectifier and mask -/

/-- The kernel's spelling, at any entry: `y * m` where `y` exceeds the zero splat, the zero splat elsewhere. -/
theorem select_gt_apply {s : Shape} (y m : FVec Ideal s .f32) (i : s.Idx) :
    select (cmpf .ogt y (broadcast s (Scalar.ofBits .f32 0x00000000#32))) (mulf y m)
        (broadcast s (Scalar.ofBits .f32 0x00000000#32)) i = act (y i) (m i) := by
  show Scalar.select (Ideal.cmp .ogt (y i) (Ideal.ofBits .f32 0x00000000#32)) (y i * m i) (Ideal.ofBits .f32 0x00000000#32) = _
  rw [Ideal.ofBits_zero_f32]
  exact select_gt_eq_act _ _

/-- The host's spelling, at any entry: the maximum with the zero scalar broadcast to the shape, times the mask. -/
theorem relu_mask_host_apply {s : Shape} (y m : FVec Ideal s .f32) (h0 : (⟨0, ![]⟩ : Shape).BroadcastsInDim s ![])
    (i : s.Idx) :
    mulf (maximumf y (broadcastInDim s ![] h0 (constant (F := Ideal) ⟨0, ![]⟩ .f32 0x00000000#32))) m i = act (y i) (m i) := by
  show max (y i) (broadcastInDim s ![] h0 (constant (F := Ideal) ⟨0, ![]⟩ .f32 0x00000000#32) i) * m i = _
  rw [broadcastInDim_apply _ h0 _ i ix0 (fun a => a.elim0)]
  show max (y i) (Ideal.ofBits .f32 0x00000000#32) * m i = _
  rw [Ideal.ofBits_zero_f32]
  rfl

/-! ## Whole arrays, row by row

  The same layers on `[R, ·]` arrays: entry `(r, n)` of the output depends on row `r` of the row-indexed operands
  only, so a layer computed on a block of rows is that block of rows of the layer computed on the whole arrays. -/

/-- Row `r` of a two-axis array. -/
abbrev row {R C : ℕ} (A : (⟨2, ![R, C]⟩ : Shape).Idx → EReal) (r : Fin R) : Fin C → EReal := fun k => A (ix2 r k)
/-- A two-axis array as a function of its two coordinates. -/
abbrev mat {K N : ℕ} (W : (⟨2, ![K, N]⟩ : Shape).Idx → EReal) : Fin K → Fin N → EReal := fun k n => W (ix2 k n)
/-- A one-axis array as a function of its coordinate. -/
abbrev vec {N : ℕ} (b : (⟨1, ![N]⟩ : Shape).Idx → EReal) : Fin N → EReal := fun n => b (ix1 n)

/-- The dense layer on every row: entry `(r, n)` is `∑ k, H (r, k) * W (k, n) + b n`. -/
def denseArr {R K N : ℕ} (H : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => dense (row H ⟨(i 0).val, idx2_lt0 i⟩) (mat W) (vec b) ⟨(i 1).val, idx2_lt1 i⟩

/-- Rectifier and mask, entry by entry. -/
def actArr {s : Shape} (Y M : s.Idx → EReal) : s.Idx → EReal := fun i => act (Y i) (M i)

/-- A hidden layer on every row. -/
def layerArr {R K N : ℕ} (H : (⟨2, ![R, K]⟩ : Shape).Idx → EReal) (W : (⟨2, ![K, N]⟩ : Shape).Idx → EReal)
    (b : (⟨1, ![N]⟩ : Shape).Idx → EReal) (M : (⟨2, ![R, N]⟩ : Shape).Idx → EReal) :
    (⟨2, ![R, N]⟩ : Shape).Idx → EReal :=
  actArr (denseArr H W b) M

theorem denseArr_ix2 {R K N : ℕ} (H : (⟨2, ![R, K]⟩ : Shape).Idx → EReal) (W : (⟨2, ![K, N]⟩ : Shape).Idx → EReal)
    (b : (⟨1, ![N]⟩ : Shape).Idx → EReal) (p : Fin R) (q : Fin N) :
    denseArr H W b (ix2 p q) = dense (row H p) (mat W) (vec b) q := rfl

/-- The kernel's dense step as an array: product into the zero accumulator plus the broadcast bias row. -/
theorem kernel_dense_eq {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (W : FVec Ideal ⟨2, ![K, N]⟩ φ₂) (b : FVec Ideal ⟨1, ![N]⟩ .f32)
    (sc : (⟨1, ![N]⟩ : Shape).ShapeCasts ⟨2, ![1, N]⟩) (bc : (⟨2, ![1, N]⟩ : Shape).Broadcasts ⟨2, ![R, N]⟩) :
    addf (matmul d prec a W (constant ⟨2, ![R, N]⟩ .f32 0x00000000#32))
        (broadcastTo ⟨2, ![R, N]⟩ (shapeCast ⟨2, ![1, N]⟩ b sc) bc) = denseArr a W b := by
  funext i
  obtain ⟨p, q, rfl⟩ : ∃ (p : Fin R) (q : Fin N), i = ix2 p q := ⟨i 0, i 1, eq_ix2 i⟩
  show matmul d prec a W (constant ⟨2, ![R, N]⟩ .f32 0x00000000#32) (ix2 p q)
      + broadcastTo ⟨2, ![R, N]⟩ (shapeCast ⟨2, ![1, N]⟩ b sc) bc (ix2 p q) = _
  rw [matmul_plain_apply d hd, bias_rows_apply]
  rfl

/-- The kernel's rectifier-and-mask as an array. -/
theorem kernel_act_eq {s : Shape} (Y M : FVec Ideal s .f32) :
    select (cmpf .ogt Y (broadcast s (Scalar.ofBits .f32 0x00000000#32))) (mulf Y M)
        (broadcast s (Scalar.ofBits .f32 0x00000000#32)) = actArr Y M :=
  funext (select_gt_apply Y M)

/-- The host's dense step as an array. -/
theorem host_dense_eq {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (W : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (Host.dotGeneral d prec a W) (broadcastInDim ⟨2, ![R, N]⟩ ![0, 1] h2 (broadcastInDim ⟨2, ![1, N]⟩ ![1] h1 b))
      = denseArr a W b := by
  funext i
  obtain ⟨p, q, rfl⟩ : ∃ (p : Fin R) (q : Fin N), i = ix2 p q := ⟨i 0, i 1, eq_ix2 i⟩
  show Host.dotGeneral d prec a W (ix2 p q)
      + broadcastInDim ⟨2, ![R, N]⟩ ![0, 1] h2 (broadcastInDim ⟨2, ![1, N]⟩ ![1] h1 b) (ix2 p q) = _
  rw [dotGeneral_plain_apply d hd, bias_rows_host_apply]
  rfl

/-- The host's rectifier-and-mask as an array. -/
theorem host_act_eq {s : Shape} (Y M : FVec Ideal s .f32) (h0 : (⟨0, ![]⟩ : Shape).BroadcastsInDim s ![]) :
    mulf (maximumf Y (broadcastInDim s ![] h0 (constant (F := Ideal) ⟨0, ![]⟩ .f32 0x00000000#32))) M = actArr Y M :=
  funext (relu_mask_host_apply Y M h0)

/-- A change of float format is the identity on extended reals. -/
theorem truncf_eq {s : Shape} {φ ψ : FTy} (v : FVec Ideal s φ) (h : ψ.bits < φ.bits) : truncf ψ v h = v := rfl

/-! ### Row locality -/

/-- Row `p` of `A` is row `r` of `A'`. -/
def RowEq {R R' C : ℕ} (A : (⟨2, ![R, C]⟩ : Shape).Idx → EReal) (A' : (⟨2, ![R', C]⟩ : Shape).Idx → EReal)
    (p : Fin R) (r : Fin R') : Prop :=
  ∀ k : Fin C, A (ix2 p k) = A' (ix2 r k)

theorem denseArr_rowEq {R R' K N : ℕ} {H : (⟨2, ![R, K]⟩ : Shape).Idx → EReal} {H' : (⟨2, ![R', K]⟩ : Shape).Idx → EReal}
    {W W' : (⟨2, ![K, N]⟩ : Shape).Idx → EReal} {b b' : (⟨1, ![N]⟩ : Shape).Idx → EReal} {p : Fin R} {r : Fin R'}
    (hH : RowEq H H' p r) (hW : W = W') (hb : b = b') : RowEq (denseArr H W b) (denseArr H' W' b') p r := by
  intro n
  subst hW hb
  have e : row H p = row H' r := funext hH
  show dense (row H p) (mat W) (vec b) n = dense (row H' r) (mat W) (vec b) n
  rw [e]

theorem actArr_rowEq {R R' C : ℕ} {Y M : (⟨2, ![R, C]⟩ : Shape).Idx → EReal} {Y' M' : (⟨2, ![R', C]⟩ : Shape).Idx → EReal}
    {p : Fin R} {r : Fin R'} (hY : RowEq Y Y' p r) (hM : RowEq M M' p r) : RowEq (actArr Y M) (actArr Y' M') p r := by
  intro n
  show act (Y (ix2 p n)) (M (ix2 p n)) = act (Y' (ix2 r n)) (M' (ix2 r n))
  rw [hY n, hM n]

theorem layerArr_rowEq {R R' K N : ℕ} {H : (⟨2, ![R, K]⟩ : Shape).Idx → EReal} {H' : (⟨2, ![R', K]⟩ : Shape).Idx → EReal}
    {W W' : (⟨2, ![K, N]⟩ : Shape).Idx → EReal} {b b' : (⟨1, ![N]⟩ : Shape).Idx → EReal}
    {M : (⟨2, ![R, N]⟩ : Shape).Idx → EReal} {M' : (⟨2, ![R', N]⟩ : Shape).Idx → EReal} {p : Fin R} {r : Fin R'}
    (hH : RowEq H H' p r) (hW : W = W') (hb : b = b') (hM : RowEq M M' p r) :
    RowEq (layerArr H W b M) (layerArr H' W' b' M') p r :=
  actArr_rowEq (denseArr_rowEq hH hW hb) hM

end Cert.DenseLayer

end
-- ==== Proof.MlpSpec.lean ====
/-
  The network both programs compute, on `R` rows at once: eight hidden layers 256 → 128 → 256 → 512 → 256 → 128 → 64 →
  32 → 16, each a dense layer followed by the rectifier and an entrywise mask (`max y 0 * m`), then a last dense layer
  16 → 10.  Entry `(r, q)` of the result depends on row `r` of the input and of the eight masks and on all of the
  weights and biases: `net_rowEq`.
-/
import proofs.«171082_j61984968016173_2_alg».proof.Proof.LibDenseLayer

noncomputable section

open Idealize.ShloMosaic Cert.DenseLayer

namespace Cert.Mlp

/-- The network on `R` rows. Arguments in the entry point's order: the input, the nine weight / bias pairs, the eight masks. -/
def net {R : ℕ} (x : (⟨2, ![R, 256]⟩ : Shape).Idx → EReal)
    (W1 : (⟨2, ![256, 128]⟩ : Shape).Idx → EReal) (b1 : (⟨1, ![128]⟩ : Shape).Idx → EReal)
    (W2 : (⟨2, ![128, 256]⟩ : Shape).Idx → EReal) (b2 : (⟨1, ![256]⟩ : Shape).Idx → EReal)
    (W3 : (⟨2, ![256, 512]⟩ : Shape).Idx → EReal) (b3 : (⟨1, ![512]⟩ : Shape).Idx → EReal)
    (W4 : (⟨2, ![512, 256]⟩ : Shape).Idx → EReal) (b4 : (⟨1, ![256]⟩ : Shape).Idx → EReal)
    (W5 : (⟨2, ![256, 128]⟩ : Shape).Idx → EReal) (b5 : (⟨1, ![128]⟩ : Shape).Idx → EReal)
    (W6 : (⟨2, ![128, 64]⟩ : Shape).Idx → EReal) (b6 : (⟨1, ![64]⟩ : Shape).Idx → EReal)
    (W7 : (⟨2, ![64, 32]⟩ : Shape).Idx → EReal) (b7 : (⟨1, ![32]⟩ : Shape).Idx → EReal)
    (W8 : (⟨2, ![32, 16]⟩ : Shape).Idx → EReal) (b8 : (⟨1, ![16]⟩ : Shape).Idx → EReal)
    (W9 : (⟨2, ![16, 10]⟩ : Shape).Idx → EReal) (b9 : (⟨1, ![10]⟩ : Shape).Idx → EReal)
    (m1 : (⟨2, ![R, 128]⟩ : Shape).Idx → EReal)
    (m2 : (⟨2, ![R, 256]⟩ : Shape).Idx → EReal)
    (m3 : (⟨2, ![R, 512]⟩ : Shape).Idx → EReal)
    (m4 : (⟨2, ![R, 256]⟩ : Shape).Idx → EReal)
    (m5 : (⟨2, ![R, 128]⟩ : Shape).Idx → EReal)
    (m6 : (⟨2, ![R, 64]⟩ : Shape).Idx → EReal)
    (m7 : (⟨2, ![R, 32]⟩ : Shape).Idx → EReal)
    (m8 : (⟨2, ![R, 16]⟩ : Shape).Idx → EReal) :
    (⟨2, ![R, 10]⟩ : Shape).Idx → EReal :=
  denseArr (layerArr (layerArr (layerArr (layerArr (layerArr (layerArr (layerArr (layerArr x W1 b1 m1) W2 b2 m2) W3 b3 m3) W4 b4 m4) W5 b5 m5) W6 b6 m6) W7 b7 m7) W8 b8 m8) W9 b9

/-- Row `p` of the network on one family of arrays is row `r` of the network on another whenever the input's and the
    masks' rows `p` and `r` agree and the weights and biases are the same. -/
theorem net_rowEq {R R' : ℕ} {x : (⟨2, ![R, 256]⟩ : Shape).Idx → EReal} {x' : (⟨2, ![R', 256]⟩ : Shape).Idx → EReal}
    {W1 W1' : (⟨2, ![256, 128]⟩ : Shape).Idx → EReal} {b1 b1' : (⟨1, ![128]⟩ : Shape).Idx → EReal}
    {W2 W2' : (⟨2, ![128, 256]⟩ : Shape).Idx → EReal} {b2 b2' : (⟨1, ![256]⟩ : Shape).Idx → EReal}
    {W3 W3' : (⟨2, ![256, 512]⟩ : Shape).Idx → EReal} {b3 b3' : (⟨1, ![512]⟩ : Shape).Idx → EReal}
    {W4 W4' : (⟨2, ![512, 256]⟩ : Shape).Idx → EReal} {b4 b4' : (⟨1, ![256]⟩ : Shape).Idx → EReal}
    {W5 W5' : (⟨2, ![256, 128]⟩ : Shape).Idx → EReal} {b5 b5' : (⟨1, ![128]⟩ : Shape).Idx → EReal}
    {W6 W6' : (⟨2, ![128, 64]⟩ : Shape).Idx → EReal} {b6 b6' : (⟨1, ![64]⟩ : Shape).Idx → EReal}
    {W7 W7' : (⟨2, ![64, 32]⟩ : Shape).Idx → EReal} {b7 b7' : (⟨1, ![32]⟩ : Shape).Idx → EReal}
    {W8 W8' : (⟨2, ![32, 16]⟩ : Shape).Idx → EReal} {b8 b8' : (⟨1, ![16]⟩ : Shape).Idx → EReal}
    {W9 W9' : (⟨2, ![16, 10]⟩ : Shape).Idx → EReal} {b9 b9' : (⟨1, ![10]⟩ : Shape).Idx → EReal}
    {m1 : (⟨2, ![R, 128]⟩ : Shape).Idx → EReal} {m1' : (⟨2, ![R', 128]⟩ : Shape).Idx → EReal}
    {m2 : (⟨2, ![R, 256]⟩ : Shape).Idx → EReal} {m2' : (⟨2, ![R', 256]⟩ : Shape).Idx → EReal}
    {m3 : (⟨2, ![R, 512]⟩ : Shape).Idx → EReal} {m3' : (⟨2, ![R', 512]⟩ : Shape).Idx → EReal}
    {m4 : (⟨2, ![R, 256]⟩ : Shape).Idx → EReal} {m4' : (⟨2, ![R', 256]⟩ : Shape).Idx → EReal}
    {m5 : (⟨2, ![R, 128]⟩ : Shape).Idx → EReal} {m5' : (⟨2, ![R', 128]⟩ : Shape).Idx → EReal}
    {m6 : (⟨2, ![R, 64]⟩ : Shape).Idx → EReal} {m6' : (⟨2, ![R', 64]⟩ : Shape).Idx → EReal}
    {m7 : (⟨2, ![R, 32]⟩ : Shape).Idx → EReal} {m7' : (⟨2, ![R', 32]⟩ : Shape).Idx → EReal}
    {m8 : (⟨2, ![R, 16]⟩ : Shape).Idx → EReal} {m8' : (⟨2, ![R', 16]⟩ : Shape).Idx → EReal}
    {p : Fin R} {r : Fin R'} (hx : RowEq x x' p r) (hW1 : W1 = W1') (hb1 : b1 = b1') (hW2 : W2 = W2') (hb2 : b2 = b2') (hW3 : W3 = W3') (hb3 : b3 = b3') (hW4 : W4 = W4') (hb4 : b4 = b4') (hW5 : W5 = W5') (hb5 : b5 = b5') (hW6 : W6 = W6') (hb6 : b6 = b6') (hW7 : W7 = W7') (hb7 : b7 = b7') (hW8 : W8 = W8') (hb8 : b8 = b8') (hW9 : W9 = W9') (hb9 : b9 = b9') (hm1 : RowEq m1 m1' p r) (hm2 : RowEq m2 m2' p r) (hm3 : RowEq m3 m3' p r) (hm4 : RowEq m4 m4' p r) (hm5 : RowEq m5 m5' p r) (hm6 : RowEq m6 m6' p r) (hm7 : RowEq m7 m7' p r) (hm8 : RowEq m8 m8' p r) :
    RowEq (net x W1 b1 W2 b2 W3 b3 W4 b4 W5 b5 W6 b6 W7 b7 W8 b8 W9 b9 m1 m2 m3 m4 m5 m6 m7 m8)
      (net x' W1' b1' W2' b2' W3' b3' W4' b4' W5' b5' W6' b6' W7' b7' W8' b8' W9' b9' m1' m2' m3' m4' m5' m6' m7' m8') p r :=
  denseArr_rowEq (layerArr_rowEq (layerArr_rowEq (layerArr_rowEq (layerArr_rowEq (layerArr_rowEq (layerArr_rowEq (layerArr_rowEq (layerArr_rowEq hx hW1 hb1 hm1) hW2 hb2 hm2) hW3 hb3 hm3) hW4 hb4 hm4) hW5 hb5 hm5) hW6 hb6 hm6) hW7 hb7 hm7) hW8 hb8 hm8) hW9 hb9

/-- The network of equal arrays. -/
theorem net_congr {R : ℕ} {x x' : (⟨2, ![R, 256]⟩ : Shape).Idx → EReal}
    {W1 W1' : (⟨2, ![256, 128]⟩ : Shape).Idx → EReal} {b1 b1' : (⟨1, ![128]⟩ : Shape).Idx → EReal}
    {W2 W2' : (⟨2, ![128, 256]⟩ : Shape).Idx → EReal} {b2 b2' : (⟨1, ![256]⟩ : Shape).Idx → EReal}
    {W3 W3' : (⟨2, ![256, 512]⟩ : Shape).Idx → EReal} {b3 b3' : (⟨1, ![512]⟩ : Shape).Idx → EReal}
    {W4 W4' : (⟨2, ![512, 256]⟩ : Shape).Idx → EReal} {b4 b4' : (⟨1, ![256]⟩ : Shape).Idx → EReal}
    {W5 W5' : (⟨2, ![256, 128]⟩ : Shape).Idx → EReal} {b5 b5' : (⟨1, ![128]⟩ : Shape).Idx → EReal}
    {W6 W6' : (⟨2, ![128, 64]⟩ : Shape).Idx → EReal} {b6 b6' : (⟨1, ![64]⟩ : Shape).Idx → EReal}
    {W7 W7' : (⟨2, ![64, 32]⟩ : Shape).Idx → EReal} {b7 b7' : (⟨1, ![32]⟩ : Shape).Idx → EReal}
    {W8 W8' : (⟨2, ![32, 16]⟩ : Shape).Idx → EReal} {b8 b8' : (⟨1, ![16]⟩ : Shape).Idx → EReal}
    {W9 W9' : (⟨2, ![16, 10]⟩ : Shape).Idx → EReal} {b9 b9' : (⟨1, ![10]⟩ : Shape).Idx → EReal}
    {m1 m1' : (⟨2, ![R, 128]⟩ : Shape).Idx → EReal}
    {m2 m2' : (⟨2, ![R, 256]⟩ : Shape).Idx → EReal}
    {m3 m3' : (⟨2, ![R, 512]⟩ : Shape).Idx → EReal}
    {m4 m4' : (⟨2, ![R, 256]⟩ : Shape).Idx → EReal}
    {m5 m5' : (⟨2, ![R, 128]⟩ : Shape).Idx → EReal}
    {m6 m6' : (⟨2, ![R, 64]⟩ : Shape).Idx → EReal}
    {m7 m7' : (⟨2, ![R, 32]⟩ : Shape).Idx → EReal}
    {m8 m8' : (⟨2, ![R, 16]⟩ : Shape).Idx → EReal}
    (hx : x = x') (hW1 : W1 = W1') (hb1 : b1 = b1') (hW2 : W2 = W2') (hb2 : b2 = b2') (hW3 : W3 = W3') (hb3 : b3 = b3') (hW4 : W4 = W4') (hb4 : b4 = b4') (hW5 : W5 = W5') (hb5 : b5 = b5') (hW6 : W6 = W6') (hb6 : b6 = b6') (hW7 : W7 = W7') (hb7 : b7 = b7') (hW8 : W8 = W8') (hb8 : b8 = b8') (hW9 : W9 = W9') (hb9 : b9 = b9') (hm1 : m1 = m1') (hm2 : m2 = m2') (hm3 : m3 = m3') (hm4 : m4 = m4') (hm5 : m5 = m5') (hm6 : m6 = m6') (hm7 : m7 = m7') (hm8 : m8 = m8') :
    net x W1 b1 W2 b2 W3 b3 W4 b4 W5 b5 W6 b6 W7 b7 W8 b8 W9 b9 m1 m2 m3 m4 m5 m6 m7 m8
      = net x' W1' b1' W2' b2' W3' b3' W4' b4' W5' b5' W6' b6' W7' b7' W8' b8' W9' b9' m1' m2' m3' m4' m5' m6' m7' m8' := by
  subst hx hW1 hb1 hW2 hb2 hW3 hb3 hW4 hb4 hW5 hb5 hW6 hb6 hW7 hb7 hW8 hb8 hW9 hb9 hm1 hm2 hm3 hm4 hm5 hm6 hm7 hm8
  rfl

end Cert.Mlp

end
-- ==== Proof.RefValue.lean ====
/-
  The reference's result array is the network of MlpSpec on all 65536 rows.  Its program is nine host dot products
  over the plain `[65536, K] × [K, N]` dimension numbers, each followed by the bias row placed on every row, the first
  eight also by `maximum(·, 0)` and the product with the layer's mask: layer by layer these are `denseArr` and `actArr`.
-/
import proofs.«171082_j61984968016173_2_alg».proof.Proof.Gen.ReferenceIdeal.Read
import proofs.«171082_j61984968016173_2_alg».proof.Proof.MlpSpec

noncomputable section

open Idealize.ShloMosaic Cert.DenseLayer Cert.Mlp
open Cert.ReferenceIdeal Cert.ReferenceIdeal.Read

namespace Cert.Mlp.Ref

theorem plain0 : dot_S65536x256_S256x128_S65536x128_1_0_0_1_n_n = DotDims.plain 65536 256 128 := rfl
theorem plain1 : dot_S65536x128_S128x256_S65536x256_1_0_0_1_n_n = DotDims.plain 65536 128 256 := rfl
theorem plain2 : dot_S65536x256_S256x512_S65536x512_1_0_0_1_n_n = DotDims.plain 65536 256 512 := rfl
theorem plain3 : dot_S65536x512_S512x256_S65536x256_1_0_0_1_n_n = DotDims.plain 65536 512 256 := rfl
theorem plain4 : dot_S65536x128_S128x64_S65536x64_1_0_0_1_n_n = DotDims.plain 65536 128 64 := rfl
theorem plain5 : dot_S65536x64_S64x32_S65536x32_1_0_0_1_n_n = DotDims.plain 65536 64 32 := rfl
theorem plain6 : dot_S65536x32_S32x16_S65536x16_1_0_0_1_n_n = DotDims.plain 65536 32 16 := rfl
theorem plain7 : dot_S65536x16_S16x10_S65536x10_1_0_0_1_n_n = DotDims.plain 65536 16 10 := rfl

/-- The reference's last stage, as a function of the 27 arguments, is `net` of them. -/
theorem result_is_net
    (x0 : (⟨S65536x256, .f32⟩ : BufTy).Contents (Elt Ideal)) (x1 : (⟨S256x128, .f32⟩ : BufTy).Contents (Elt Ideal))
    (x2 : (⟨S128, .f32⟩ : BufTy).Contents (Elt Ideal)) (x3 : (⟨S128x256, .f32⟩ : BufTy).Contents (Elt Ideal))
    (x4 : (⟨S256, .f32⟩ : BufTy).Contents (Elt Ideal)) (x5 : (⟨S256x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S256x128, .f32⟩ : BufTy).Contents (Elt Ideal))
    (x10 : (⟨S128, .f32⟩ : BufTy).Contents (Elt Ideal)) (x11 : (⟨S128x64, .f32⟩ : BufTy).Contents (Elt Ideal))
    (x12 : (⟨S64, .f32⟩ : BufTy).Contents (Elt Ideal)) (x13 : (⟨S64x32, .f32⟩ : BufTy).Contents (Elt Ideal))
    (x14 : (⟨S32, .f32⟩ : BufTy).Contents (Elt Ideal)) (x15 : (⟨S32x16, .f32⟩ : BufTy).Contents (Elt Ideal))
    (x16 : (⟨S16, .f32⟩ : BufTy).Contents (Elt Ideal)) (x17 : (⟨S16x10, .f32⟩ : BufTy).Contents (Elt Ideal))
    (x18 : (⟨S10, .f32⟩ : BufTy).Contents (Elt Ideal)) (x19 : (⟨S65536x128, .f32⟩ : BufTy).Contents (Elt Ideal))
    (x20 : (⟨S65536x256, .f32⟩ : BufTy).Contents (Elt Ideal)) (x21 : (⟨S65536x512, .f32⟩ : BufTy).Contents (Elt Ideal))
    (x22 : (⟨S65536x256, .f32⟩ : BufTy).Contents (Elt Ideal)) (x23 : (⟨S65536x128, .f32⟩ : BufTy).Contents (Elt Ideal))
    (x24 : (⟨S65536x64, .f32⟩ : BufTy).Contents (Elt Ideal)) (x25 : (⟨S65536x32, .f32⟩ : BufTy).Contents (Elt Ideal))
    (x26 : (⟨S65536x16, .f32⟩ : BufTy).Contents (Elt Ideal)) :
    val_main_v51 (F := Ideal) x0 x1 x2 x3 x4 x5 x6 x7 x8 x9 x10 x11 x12 x13 x14 x15 x16 x17 x18 x19 x20 x21 x22 x23 x24 x25 x26
      = net x0 x1 x2 x3 x4 x5 x6 x7 x8 x9 x10 x11 x12 x13 x14 x15 x16 x17 x18 x19 x20 x21 x22 x23 x24 x25 x26 := by
  rw [← val_main_v51_eq]
  simp only [host_dense_eq _ plain0, host_dense_eq _ plain1, host_dense_eq _ plain2, host_dense_eq _ plain3, host_dense_eq _ plain4, host_dense_eq _ plain5, host_dense_eq _ plain6, host_dense_eq _ plain7,
    host_act_eq _ _ Gen.bcast_S_S65536x128, host_act_eq _ _ Gen.bcast_S_S65536x256, host_act_eq _ _ Gen.bcast_S_S65536x512, host_act_eq _ _ Gen.bcast_S_S65536x64, host_act_eq _ _ Gen.bcast_S_S65536x32, host_act_eq _ _ Gen.bcast_S_S65536x16]
  rfl

end Cert.Mlp.Ref

end
-- ==== Proof.KernelPayload.lean ====
/-
  The kernel body's arithmetic on one block of 2048 rows.  The body is cut into five pure terms; together they are the
  network of MlpSpec on the block's rows: each hidden layer is a matrix product of the previous activations (rounded to
  bf16 — the identity on extended reals) with the resident weights into a zero accumulator, plus the bias row, then
  `select (y > 0) (y * m) 0`, which is `max y 0 * m`; the last layer has no rectifier.
-/
import proofs.«171082_j61984968016173_2_alg».proof.Proof.Gen.KernelIdeal.Skeleton
import proofs.«171082_j61984968016173_2_alg».proof.Proof.MlpSpec

noncomputable section

open Idealize.ShloMosaic Cert.DenseLayer Cert.Mlp
open Cert.KernelIdeal Cert.KernelIdeal.Gen

namespace Cert.Mlp.Kernel

theorem plain0 : dot_S2048x256_S256x128_S2048x128_1_0_0_1_n_n = DotDims.plain 2048 256 128 := rfl
theorem plain1 : dot_S2048x128_S128x256_S2048x256_1_0_0_1_n_n = DotDims.plain 2048 128 256 := rfl
theorem plain2 : dot_S2048x256_S256x512_S2048x512_1_0_0_1_n_n = DotDims.plain 2048 256 512 := rfl
theorem plain3 : dot_S2048x512_S512x256_S2048x256_1_0_0_1_n_n = DotDims.plain 2048 512 256 := rfl
theorem plain4 : dot_S2048x128_S128x64_S2048x64_1_0_0_1_n_n = DotDims.plain 2048 128 64 := rfl
theorem plain5 : dot_S2048x64_S64x32_S2048x32_1_0_0_1_n_n = DotDims.plain 2048 64 32 := rfl
theorem plain6 : dot_S2048x32_S32x16_S2048x16_1_0_0_1_n_n = DotDims.plain 2048 32 16 := rfl
theorem plain7 : dot_S2048x16_S16x10_S2048x10_1_0_0_1_n_n = DotDims.plain 2048 16 10 := rfl

/-- Layers 1 and 2, and layer 3 up to its bias. -/
theorem pay2_eq (v0 : Vec Ideal S2048x256 .f32) (v2 : Vec Ideal S256x128 .bf16) (v4 : Vec Ideal S128 .f32)
    (v11 : Vec Ideal S2048x128 .f32) (v16 : Vec Ideal S128x256 .bf16) (v18 : Vec Ideal S256 .f32)
    (v25 : Vec Ideal S2048x256 .f32) (v30 : Vec Ideal S256x512 .bf16) (v32 : Vec Ideal S512 .f32) :
    k0_pay2 (F := Ideal) v0 v2 v4 v11 v16 v18 v25 v30 v32
      = denseArr (layerArr (layerArr v0 v2 v4 v11) v16 v18 v25) v30 v32 := by
  unfold k0_pay2
  simp only [shapeCast_self, truncf_eq, kernel_dense_eq _ plain0, kernel_dense_eq _ plain1, kernel_dense_eq _ plain2, kernel_dense_eq _ plain3, kernel_dense_eq _ plain4, kernel_dense_eq _ plain5, kernel_dense_eq _ plain6, kernel_dense_eq _ plain7, kernel_act_eq]
  rfl

/-- Layer 3's rectifier and mask, then layers 4 and 5. -/
theorem pay3_eq (v36 : FVec Ideal S2048x512 .f32) (v39 : Vec Ideal S2048x512 .f32) (v44 : Vec Ideal S512x256 .bf16)
    (v46 : Vec Ideal S256 .f32) (v53 : Vec Ideal S2048x256 .f32) (v58 : Vec Ideal S256x128 .bf16)
    (v60 : Vec Ideal S128 .f32) (v67 : Vec Ideal S2048x128 .f32) :
    k0_pay3 (F := Ideal) v36 v39 v44 v46 v53 v58 v60 v67
      = layerArr (layerArr (actArr v36 v39) v44 v46 v53) v58 v60 v67 := by
  unfold k0_pay3
  simp only [shapeCast_self, truncf_eq, kernel_dense_eq _ plain0, kernel_dense_eq _ plain1, kernel_dense_eq _ plain2, kernel_dense_eq _ plain3, kernel_dense_eq _ plain4, kernel_dense_eq _ plain5, kernel_dense_eq _ plain6, kernel_dense_eq _ plain7, kernel_act_eq]
  rfl

/-- Layer 6's weights pass through a cast to their own shape. -/
theorem pay4_eq (v72 : Vec Ideal S128x64 .bf16) : k0_pay4 (F := Ideal) v72 = v72 := by
  unfold k0_pay4
  exact shapeCast_self _ _

/-- Layers 6, 7 and 8. -/
theorem pay5_eq (v71 : FVec Ideal S2048x128 .bf16) (v73 : FVec Ideal S128x64 .bf16) (v74 : Vec Ideal S64 .f32)
    (v81 : Vec Ideal S2048x64 .f32) (v86 : Vec Ideal S64x32 .bf16) (v88 : Vec Ideal S32 .f32)
    (v95 : Vec Ideal S2048x32 .f32) (v100 : Vec Ideal S32x16 .bf16) (v102 : Vec Ideal S16 .f32)
    (v109 : Vec Ideal S2048x16 .f32) :
    k0_pay5 (F := Ideal) v71 v73 v74 v81 v86 v88 v95 v100 v102 v109
      = layerArr (layerArr (layerArr v71 v73 v74 v81) v86 v88 v95) v100 v102 v109 := by
  unfold k0_pay5
  simp only [shapeCast_self, truncf_eq, kernel_dense_eq _ plain0, kernel_dense_eq _ plain1, kernel_dense_eq _ plain2, kernel_dense_eq _ plain3, kernel_dense_eq _ plain4, kernel_dense_eq _ plain5, kernel_dense_eq _ plain6, kernel_dense_eq _ plain7, kernel_act_eq]
  rfl

/-- The last layer. -/
theorem pay1_eq (v112 : FVec Ideal S2048x16 .f32) (v114 : Vec Ideal S16x10 .bf16) (v116 : Vec Ideal S10 .f32) :
    k0_pay1 (F := Ideal) v112 v114 v116 = denseArr v112 v114 v116 := by
  unfold k0_pay1
  simp only [shapeCast_self, truncf_eq, kernel_dense_eq _ plain0, kernel_dense_eq _ plain1, kernel_dense_eq _ plain2, kernel_dense_eq _ plain3, kernel_dense_eq _ plain4, kernel_dense_eq _ plain5, kernel_dense_eq _ plain6, kernel_dense_eq _ plain7, kernel_act_eq]

end Cert.Mlp.Kernel

end
-- ==== Proof.KernelValue.lean ====
/-
  The kernel's result array.  The grid has 32 points; point `t` works on rows `2048 t … 2048 t + 2047`: its blocks of
  the input and of the eight masks are those rows of the argument arrays, its blocks of the weights and biases are the
  whole (resident) arrays — the weights as the host rounded them to bf16 before the call, which is the identity on
  extended reals — and what it writes back is those rows of the result.  The body computes the network of MlpSpec on its
  block, an entry of the network depends on its own row only, and the 32 blocks cover the result: so the result array
  is the network on all 65536 rows of the arguments.
-/
import proofs.«171082_j61984968016173_2_alg».proof.Proof.KernelIdealValueP
import proofs.«171082_j61984968016173_2_alg».proof.Proof.KernelPayload
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)
open Cert.DenseLayer Cert.Mlp

namespace Cert.Mlp.Kernel

open Cert.KernelIdeal Cert.KernelIdeal.Gen Cert.KernelIdeal.GenP Cert.KernelIdeal.ValueP

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- What the body leaves in the output's staging buffer is the network on the 27 input blocks. -/
theorem body_is_net
    (x0 : Vec Ideal S2048x256 .f32) (x1 : Vec Ideal S256x128 .bf16) (x2 : Vec Ideal S128 .f32)
    (x3 : Vec Ideal S128x256 .bf16) (x4 : Vec Ideal S256 .f32) (x5 : Vec Ideal S256x512 .bf16)
    (x6 : Vec Ideal S512 .f32) (x7 : Vec Ideal S512x256 .bf16) (x8 : Vec Ideal S256 .f32)
    (x9 : Vec Ideal S256x128 .bf16) (x10 : Vec Ideal S128 .f32) (x11 : Vec Ideal S128x64 .bf16)
    (x12 : Vec Ideal S64 .f32) (x13 : Vec Ideal S64x32 .bf16) (x14 : Vec Ideal S32 .f32)
    (x15 : Vec Ideal S32x16 .bf16) (x16 : Vec Ideal S16 .f32) (x17 : Vec Ideal S16x10 .bf16)
    (x18 : Vec Ideal S10 .f32) (x19 : Vec Ideal S2048x128 .f32) (x20 : Vec Ideal S2048x256 .f32)
    (x21 : Vec Ideal S2048x512 .f32) (x22 : Vec Ideal S2048x256 .f32) (x23 : Vec Ideal S2048x128 .f32)
    (x24 : Vec Ideal S2048x64 .f32) (x25 : Vec Ideal S2048x32 .f32) (x26 : Vec Ideal S2048x16 .f32) :
    out0_27 x0 x1 x2 x3 x4 x5 x6 x7 x8 x9 x10 x11 x12 x13 x14 x15 x16 x17 x18 x19 x20 x21 x22 x23 x24 x25 x26
      = net x0 x1 x2 x3 x4 x5 x6 x7 x8 x9 x10 x11 x12 x13 x14 x15 x16 x17 x18 x19 x20 x21 x22 x23 x24 x25 x26 := by
  unfold out0_27
  rw [View.canon_unit_zero hz2]
  simp only [View.ld_unit_zero (S := S2048x256) hz2, View.ld_unit_zero (S := S256x128) hz2, View.ld_unit_zero (S := S128) hz1, View.ld_unit_zero (S := S128x256) hz2, View.ld_unit_zero (S := S256) hz1, View.ld_unit_zero (S := S256x512) hz2, View.ld_unit_zero (S := S512) hz1, View.ld_unit_zero (S := S512x256) hz2, View.ld_unit_zero (S := S128x64) hz2, View.ld_unit_zero (S := S64) hz1, View.ld_unit_zero (S := S64x32) hz2, View.ld_unit_zero (S := S32) hz1, View.ld_unit_zero (S := S32x16) hz2, View.ld_unit_zero (S := S16) hz1, View.ld_unit_zero (S := S16x10) hz2, View.ld_unit_zero (S := S10) hz1, View.ld_unit_zero (S := S2048x128) hz2, View.ld_unit_zero (S := S2048x512) hz2, View.ld_unit_zero (S := S2048x64) hz2, View.ld_unit_zero (S := S2048x32) hz2, View.ld_unit_zero (S := S2048x16) hz2]
  rw [pay1_eq, pay5_eq, pay3_eq, pay2_eq, pay4_eq]
  rfl

/-! ## Where each window's block sits at point `t` (decided over the 32 points)

  The input, the masks and the output move with the point along the rows; the weights and biases stay at block 0. -/
theorem idx0 : ∀ t : Fin cfg0.N, win0_0.index t (0 : Fin 2) = t.val ∧ win0_0.index t (1 : Fin 2) = 0 :=
  (by decide +kernel : ∀ t : Fin grid0.N, _)
theorem idx19 : ∀ t : Fin cfg0.N, win0_19.index t (0 : Fin 2) = t.val ∧ win0_19.index t (1 : Fin 2) = 0 :=
  (by decide +kernel : ∀ t : Fin grid0.N, _)
theorem idx20 : ∀ t : Fin cfg0.N, win0_20.index t (0 : Fin 2) = t.val ∧ win0_20.index t (1 : Fin 2) = 0 :=
  (by decide +kernel : ∀ t : Fin grid0.N, _)
theorem idx21 : ∀ t : Fin cfg0.N, win0_21.index t (0 : Fin 2) = t.val ∧ win0_21.index t (1 : Fin 2) = 0 :=
  (by decide +kernel : ∀ t : Fin grid0.N, _)
theorem idx22 : ∀ t : Fin cfg0.N, win0_22.index t (0 : Fin 2) = t.val ∧ win0_22.index t (1 : Fin 2) = 0 :=
  (by decide +kernel : ∀ t : Fin grid0.N, _)
theorem idx23 : ∀ t : Fin cfg0.N, win0_23.index t (0 : Fin 2) = t.val ∧ win0_23.index t (1 : Fin 2) = 0 :=
  (by decide +kernel : ∀ t : Fin grid0.N, _)
theorem idx24 : ∀ t : Fin cfg0.N, win0_24.index t (0 : Fin 2) = t.val ∧ win0_24.index t (1 : Fin 2) = 0 :=
  (by decide +kernel : ∀ t : Fin grid0.N, _)
theorem idx25 : ∀ t : Fin cfg0.N, win0_25.index t (0 : Fin 2) = t.val ∧ win0_25.index t (1 : Fin 2) = 0 :=
  (by decide +kernel : ∀ t : Fin grid0.N, _)
theorem idx26 : ∀ t : Fin cfg0.N, win0_26.index t (0 : Fin 2) = t.val ∧ win0_26.index t (1 : Fin 2) = 0 :=
  (by decide +kernel : ∀ t : Fin grid0.N, _)
theorem idx27 : ∀ t : Fin cfg0.N, win0_27.index t (0 : Fin 2) = t.val ∧ win0_27.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 1) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 1) = 0 :=
  (by decide +kernel : ∀ t : Fin grid0.N, _)

/-! ## The weights as the region finds them

  Before the call the host rounds each weight array to bf16; on extended reals that is the identity, so the region
  finds the argument's own values. -/
theorem V_main_v0 (c : Dev nD) : (V m c main_v0 : S256x128.Idx → EReal) = m ((c : Thread nD τ).loc main_arg1) := by
  dsimp only [V, hostOps0]
  after_results
  rfl
theorem V_main_v1 (c : Dev nD) : (V m c main_v1 : S128x256.Idx → EReal) = m ((c : Thread nD τ).loc main_arg3) := by
  dsimp only [V, hostOps0]
  after_results
  rfl
theorem V_main_v2 (c : Dev nD) : (V m c main_v2 : S256x512.Idx → EReal) = m ((c : Thread nD τ).loc main_arg5) := by
  dsimp only [V, hostOps0]
  after_results
  rfl
theorem V_main_v3 (c : Dev nD) : (V m c main_v3 : S512x256.Idx → EReal) = m ((c : Thread nD τ).loc main_arg7) := by
  dsimp only [V, hostOps0]
  after_results
  rfl
theorem V_main_v4 (c : Dev nD) : (V m c main_v4 : S256x128.Idx → EReal) = m ((c : Thread nD τ).loc main_arg9) := by
  dsimp only [V, hostOps0]
  after_results
  rfl
theorem V_main_v5 (c : Dev nD) : (V m c main_v5 : S128x64.Idx → EReal) = m ((c : Thread nD τ).loc main_arg11) := by
  dsimp only [V, hostOps0]
  after_results
  rfl
theorem V_main_v6 (c : Dev nD) : (V m c main_v6 : S64x32.Idx → EReal) = m ((c : Thread nD τ).loc main_arg13) := by
  dsimp only [V, hostOps0]
  after_results
  rfl
theorem V_main_v7 (c : Dev nD) : (V m c main_v7 : S32x16.Idx → EReal) = m ((c : Thread nD τ).loc main_arg15) := by
  dsimp only [V, hostOps0]
  after_results
  rfl
theorem V_main_v8 (c : Dev nD) : (V m c main_v8 : S16x10.Idx → EReal) = m ((c : Thread nD τ).loc main_arg17) := by
  dsimp only [V, hostOps0]
  after_results
  rfl

/-! ## Each window's block at point `t`, read off the argument arrays -/
/-- The row of the whole arrays that row `p` of point `t`'s blocks is. -/
abbrev rowAt (t : Fin cfg0.N) (p : Fin 2048) : Fin 65536 :=
  ⟨2048 * t.val + p.val, by have := t.isLt; have := p.isLt; have : cfg0.N = 32 := N_0; omega⟩

theorem blk0_row (c : Dev nD) (t : Fin cfg0.N) (p : Fin 2048) :
    RowEq (iblk m c 0 t : Vec Ideal S2048x256 .f32) (m ((c : Thread nD τ).loc main_arg0) : S65536x256.Idx → EReal) p (rowAt t p) := by
  intro k
  obtain ⟨e0, e1⟩ := idx0 t
  unfold iblk
  rw [View.read_apply]
  show V m c main_arg0 _ = _
  rw [V_main_arg0]
  congr 1
  funext a
  apply Fin.ext
  match a with
  | ⟨0, _⟩ => show win0_0.index t (0 : Fin 2) * 2048 + 1 * p.val = 2048 * t.val + p.val; rw [e0]; omega
  | ⟨1, _⟩ => show win0_0.index t (1 : Fin 2) * 256 + 1 * k.val = k.val; rw [e1]; omega
theorem blk19_row (c : Dev nD) (t : Fin cfg0.N) (p : Fin 2048) :
    RowEq (iblk m c 19 t : Vec Ideal S2048x128 .f32) (m ((c : Thread nD τ).loc main_arg19) : S65536x128.Idx → EReal) p (rowAt t p) := by
  intro k
  obtain ⟨e0, e1⟩ := idx19 t
  unfold iblk
  rw [View.read_apply]
  show V m c main_arg19 _ = _
  rw [V_main_arg19]
  congr 1
  funext a
  apply Fin.ext
  match a with
  | ⟨0, _⟩ => show win0_19.index t (0 : Fin 2) * 2048 + 1 * p.val = 2048 * t.val + p.val; rw [e0]; omega
  | ⟨1, _⟩ => show win0_19.index t (1 : Fin 2) * 128 + 1 * k.val = k.val; rw [e1]; omega
theorem blk20_row (c : Dev nD) (t : Fin cfg0.N) (p : Fin 2048) :
    RowEq (iblk m c 20 t : Vec Ideal S2048x256 .f32) (m ((c : Thread nD τ).loc main_arg20) : S65536x256.Idx → EReal) p (rowAt t p) := by
  intro k
  obtain ⟨e0, e1⟩ := idx20 t
  unfold iblk
  rw [View.read_apply]
  show V m c main_arg20 _ = _
  rw [V_main_arg20]
  congr 1
  funext a
  apply Fin.ext
  match a with
  | ⟨0, _⟩ => show win0_20.index t (0 : Fin 2) * 2048 + 1 * p.val = 2048 * t.val + p.val; rw [e0]; omega
  | ⟨1, _⟩ => show win0_20.index t (1 : Fin 2) * 256 + 1 * k.val = k.val; rw [e1]; omega
theorem blk21_row (c : Dev nD) (t : Fin cfg0.N) (p : Fin 2048) :
    RowEq (iblk m c 21 t : Vec Ideal S2048x512 .f32) (m ((c : Thread nD τ).loc main_arg21) : S65536x512.Idx → EReal) p (rowAt t p) := by
  intro k
  obtain ⟨e0, e1⟩ := idx21 t
  unfold iblk
  rw [View.read_apply]
  show V m c main_arg21 _ = _
  rw [V_main_arg21]
  congr 1
  funext a
  apply Fin.ext
  match a with
  | ⟨0, _⟩ => show win0_21.index t (0 : Fin 2) * 2048 + 1 * p.val = 2048 * t.val + p.val; rw [e0]; omega
  | ⟨1, _⟩ => show win0_21.index t (1 : Fin 2) * 512 + 1 * k.val = k.val; rw [e1]; omega
theorem blk22_row (c : Dev nD) (t : Fin cfg0.N) (p : Fin 2048) :
    RowEq (iblk m c 22 t : Vec Ideal S2048x256 .f32) (m ((c : Thread nD τ).loc main_arg22) : S65536x256.Idx → EReal) p (rowAt t p) := by
  intro k
  obtain ⟨e0, e1⟩ := idx22 t
  unfold iblk
  rw [View.read_apply]
  show V m c main_arg22 _ = _
  rw [V_main_arg22]
  congr 1
  funext a
  apply Fin.ext
  match a with
  | ⟨0, _⟩ => show win0_22.index t (0 : Fin 2) * 2048 + 1 * p.val = 2048 * t.val + p.val; rw [e0]; omega
  | ⟨1, _⟩ => show win0_22.index t (1 : Fin 2) * 256 + 1 * k.val = k.val; rw [e1]; omega
theorem blk23_row (c : Dev nD) (t : Fin cfg0.N) (p : Fin 2048) :
    RowEq (iblk m c 23 t : Vec Ideal S2048x128 .f32) (m ((c : Thread nD τ).loc main_arg23) : S65536x128.Idx → EReal) p (rowAt t p) := by
  intro k
  obtain ⟨e0, e1⟩ := idx23 t
  unfold iblk
  rw [View.read_apply]
  show V m c main_arg23 _ = _
  rw [V_main_arg23]
  congr 1
  funext a
  apply Fin.ext
  match a with
  | ⟨0, _⟩ => show win0_23.index t (0 : Fin 2) * 2048 + 1 * p.val = 2048 * t.val + p.val; rw [e0]; omega
  | ⟨1, _⟩ => show win0_23.index t (1 : Fin 2) * 128 + 1 * k.val = k.val; rw [e1]; omega
theorem blk24_row (c : Dev nD) (t : Fin cfg0.N) (p : Fin 2048) :
    RowEq (iblk m c 24 t : Vec Ideal S2048x64 .f32) (m ((c : Thread nD τ).loc main_arg24) : S65536x64.Idx → EReal) p (rowAt t p) := by
  intro k
  obtain ⟨e0, e1⟩ := idx24 t
  unfold iblk
  rw [View.read_apply]
  show V m c main_arg24 _ = _
  rw [V_main_arg24]
  congr 1
  funext a
  apply Fin.ext
  match a with
  | ⟨0, _⟩ => show win0_24.index t (0 : Fin 2) * 2048 + 1 * p.val = 2048 * t.val + p.val; rw [e0]; omega
  | ⟨1, _⟩ => show win0_24.index t (1 : Fin 2) * 64 + 1 * k.val = k.val; rw [e1]; omega
theorem blk25_row (c : Dev nD) (t : Fin cfg0.N) (p : Fin 2048) :
    RowEq (iblk m c 25 t : Vec Ideal S2048x32 .f32) (m ((c : Thread nD τ).loc main_arg25) : S65536x32.Idx → EReal) p (rowAt t p) := by
  intro k
  obtain ⟨e0, e1⟩ := idx25 t
  unfold iblk
  rw [View.read_apply]
  show V m c main_arg25 _ = _
  rw [V_main_arg25]
  congr 1
  funext a
  apply Fin.ext
  match a with
  | ⟨0, _⟩ => show win0_25.index t (0 : Fin 2) * 2048 + 1 * p.val = 2048 * t.val + p.val; rw [e0]; omega
  | ⟨1, _⟩ => show win0_25.index t (1 : Fin 2) * 32 + 1 * k.val = k.val; rw [e1]; omega
theorem blk26_row (c : Dev nD) (t : Fin cfg0.N) (p : Fin 2048) :
    RowEq (iblk m c 26 t : Vec Ideal S2048x16 .f32) (m ((c : Thread nD τ).loc main_arg26) : S65536x16.Idx → EReal) p (rowAt t p) := by
  intro k
  obtain ⟨e0, e1⟩ := idx26 t
  unfold iblk
  rw [View.read_apply]
  show V m c main_arg26 _ = _
  rw [V_main_arg26]
  congr 1
  funext a
  apply Fin.ext
  match a with
  | ⟨0, _⟩ => show win0_26.index t (0 : Fin 2) * 2048 + 1 * p.val = 2048 * t.val + p.val; rw [e0]; omega
  | ⟨1, _⟩ => show win0_26.index t (1 : Fin 2) * 16 + 1 * k.val = k.val; rw [e1]; omega
theorem blk1_eq (c : Dev nD) (t : Fin cfg0.N) :
    (iblk m c 1 t : Vec Ideal S256x128 .bf16) = (m ((c : Thread nD τ).loc main_arg1) : S256x128.Idx → EReal) := by
  obtain ⟨e0, e1⟩ := idx1 t
  funext y
  unfold iblk
  rw [View.read_apply]
  show V m c main_v0 _ = _
  rw [V_main_v0]
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega
theorem blk2_eq (c : Dev nD) (t : Fin cfg0.N) :
    (iblk m c 2 t : Vec Ideal S128 .f32) = (m ((c : Thread nD τ).loc main_arg2) : S128.Idx → EReal) := by
  have e0 := idx2 t
  funext y
  unfold iblk
  rw [View.read_apply]
  show V m c main_arg2 _ = _
  rw [V_main_arg2]
  congr 1
  funext a
  apply Fin.ext
  match a with
  | ⟨0, _⟩ => show win0_2.index t (0 : Fin 1) * 128 + 1 * (y 0).val = (y 0).val; rw [e0]; omega
theorem blk3_eq (c : Dev nD) (t : Fin cfg0.N) :
    (iblk m c 3 t : Vec Ideal S128x256 .bf16) = (m ((c : Thread nD τ).loc main_arg3) : S128x256.Idx → EReal) := by
  obtain ⟨e0, e1⟩ := idx3 t
  funext y
  unfold iblk
  rw [View.read_apply]
  show V m c main_v1 _ = _
  rw [V_main_v1]
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega
theorem blk4_eq (c : Dev nD) (t : Fin cfg0.N) :
    (iblk m c 4 t : Vec Ideal S256 .f32) = (m ((c : Thread nD τ).loc main_arg4) : S256.Idx → EReal) := by
  have e0 := idx4 t
  funext y
  unfold iblk
  rw [View.read_apply]
  show V m c main_arg4 _ = _
  rw [V_main_arg4]
  congr 1
  funext a
  apply Fin.ext
  match a with
  | ⟨0, _⟩ => show win0_4.index t (0 : Fin 1) * 256 + 1 * (y 0).val = (y 0).val; rw [e0]; omega
theorem blk5_eq (c : Dev nD) (t : Fin cfg0.N) :
    (iblk m c 5 t : Vec Ideal S256x512 .bf16) = (m ((c : Thread nD τ).loc main_arg5) : S256x512.Idx → EReal) := by
  obtain ⟨e0, e1⟩ := idx5 t
  funext y
  unfold iblk
  rw [View.read_apply]
  show V m c main_v2 _ = _
  rw [V_main_v2]
  congr 1
  funext a
  apply Fin.ext
  match a with
  | ⟨0, _⟩ => show win0_5.index t (0 : Fin 2) * 256 + 1 * (y 0).val = (y 0).val; rw [e0]; omega
  | ⟨1, _⟩ => show win0_5.index t (1 : Fin 2) * 512 + 1 * (y 1).val = (y 1).val; rw [e1]; omega
theorem blk6_eq (c : Dev nD) (t : Fin cfg0.N) :
    (iblk m c 6 t : Vec Ideal S512 .f32) = (m ((c : Thread nD τ).loc main_arg6) : S512.Idx → EReal) := by
  have e0 := idx6 t
  funext y
  unfold iblk
  rw [View.read_apply]
  show V m c main_arg6 _ = _
  rw [V_main_arg6]
  congr 1
  funext a
  apply Fin.ext
  match a with
  | ⟨0, _⟩ => show win0_6.index t (0 : Fin 1) * 512 + 1 * (y 0).val = (y 0).val; rw [e0]; omega
theorem blk7_eq (c : Dev nD) (t : Fin cfg0.N) :
    (iblk m c 7 t : Vec Ideal S512x256 .bf16) = (m ((c : Thread nD τ).loc main_arg7) : S512x256.Idx → EReal) := by
  obtain ⟨e0, e1⟩ := idx7 t
  funext y
  unfold iblk
  rw [View.read_apply]
  show V m c main_v3 _ = _
  rw [V_main_v3]
  congr 1
  funext a
  apply Fin.ext
  match a with
  | ⟨0, _⟩ => show win0_7.index t (0 : Fin 2) * 512 + 1 * (y 0).val = (y 0).val; rw [e0]; omega
  | ⟨1, _⟩ => show win0_7.index t (1 : Fin 2) * 256 + 1 * (y 1).val = (y 1).val; rw [e1]; omega
theorem blk8_eq (c : Dev nD) (t : Fin cfg0.N) :
    (iblk m c 8 t : Vec Ideal S256 .f32) = (m ((c : Thread nD τ).loc main_arg8) : S256.Idx → EReal) := by
  have e0 := idx8 t
  funext y
  unfold iblk
  rw [View.read_apply]
  show V m c main_arg8 _ = _
  rw [V_main_arg8]
  congr 1
  funext a
  apply Fin.ext
  match a with
  | ⟨0, _⟩ => show win0_8.index t (0 : Fin 1) * 256 + 1 * (y 0).val = (y 0).val; rw [e0]; omega
theorem blk9_eq (c : Dev nD) (t : Fin cfg0.N) :
    (iblk m c 9 t : Vec Ideal S256x128 .bf16) = (m ((c : Thread nD τ).loc main_arg9) : S256x128.Idx → EReal) := by
  obtain ⟨e0, e1⟩ := idx9 t
  funext y
  unfold iblk
  rw [View.read_apply]
  show V m c main_v4 _ = _
  rw [V_main_v4]
  congr 1
  funext a
  apply Fin.ext
  match a with
  | ⟨0, _⟩ => show win0_9.index t (0 : Fin 2) * 256 + 1 * (y 0).val = (y 0).val; rw [e0]; omega
  | ⟨1, _⟩ => show win0_9.index t (1 : Fin 2) * 128 + 1 * (y 1).val = (y 1).val; rw [e1]; omega
theorem blk10_eq (c : Dev nD) (t : Fin cfg0.N) :
    (iblk m c 10 t : Vec Ideal S128 .f32) = (m ((c : Thread nD τ).loc main_arg10) : S128.Idx → EReal) := by
  have e0 := idx10 t
  funext y
  unfold iblk
  rw [View.read_apply]
  show V m c main_arg10 _ = _
  rw [V_main_arg10]
  congr 1
  funext a
  apply Fin.ext
  match a with
  | ⟨0, _⟩ => show win0_10.index t (0 : Fin 1) * 128 + 1 * (y 0).val = (y 0).val; rw [e0]; omega
theorem blk11_eq (c : Dev nD) (t : Fin cfg0.N) :
    (iblk m c 11 t : Vec Ideal S128x64 .bf16) = (m ((c : Thread nD τ).loc main_arg11) : S128x64.Idx → EReal) := by
  obtain ⟨e0, e1⟩ := idx11 t
  funext y
  unfold iblk
  rw [View.read_apply]
  show V m c main_v5 _ = _
  rw [V_main_v5]
  congr 1
  funext a
  apply Fin.ext
  match a with
  | ⟨0, _⟩ => show win0_11.index t (0 : Fin 2) * 128 + 1 * (y 0).val = (y 0).val; rw [e0]; omega
  | ⟨1, _⟩ => show win0_11.index t (1 : Fin 2) * 64 + 1 * (y 1).val = (y 1).val; rw [e1]; omega
theorem blk12_eq (c : Dev nD) (t : Fin cfg0.N) :
    (iblk m c 12 t : Vec Ideal S64 .f32) = (m ((c : Thread nD τ).loc main_arg12) : S64.Idx → EReal) := by
  have e0 := idx12 t
  funext y
  unfold iblk
  rw [View.read_apply]
  show V m c main_arg12 _ = _
  rw [V_main_arg12]
  congr 1
  funext a
  apply Fin.ext
  match a with
  | ⟨0, _⟩ => show win0_12.index t (0 : Fin 1) * 64 + 1 * (y 0).val = (y 0).val; rw [e0]; omega
theorem blk13_eq (c : Dev nD) (t : Fin cfg0.N) :
    (iblk m c 13 t : Vec Ideal S64x32 .bf16) = (m ((c : Thread nD τ).loc main_arg13) : S64x32.Idx → EReal) := by
  obtain ⟨e0, e1⟩ := idx13 t
  funext y
  unfold iblk
  rw [View.read_apply]
  show V m c main_v6 _ = _
  rw [V_main_v6]
  congr 1
  funext a
  apply Fin.ext
  match a with
  | ⟨0, _⟩ => show win0_13.index t (0 : Fin 2) * 64 + 1 * (y 0).val = (y 0).val; rw [e0]; omega
  | ⟨1, _⟩ => show win0_13.index t (1 : Fin 2) * 32 + 1 * (y 1).val = (y 1).val; rw [e1]; omega
theorem blk14_eq (c : Dev nD) (t : Fin cfg0.N) :
    (iblk m c 14 t : Vec Ideal S32 .f32) = (m ((c : Thread nD τ).loc main_arg14) : S32.Idx → EReal) := by
  have e0 := idx14 t
  funext y
  unfold iblk
  rw [View.read_apply]
  show V m c main_arg14 _ = _
  rw [V_main_arg14]
  congr 1
  funext a
  apply Fin.ext
  match a with
  | ⟨0, _⟩ => show win0_14.index t (0 : Fin 1) * 32 + 1 * (y 0).val = (y 0).val; rw [e0]; omega
theorem blk15_eq (c : Dev nD) (t : Fin cfg0.N) :
    (iblk m c 15 t : Vec Ideal S32x16 .bf16) = (m ((c : Thread nD τ).loc main_arg15) : S32x16.Idx → EReal) := by
  obtain ⟨e0, e1⟩ := idx15 t
  funext y
  unfold iblk
  rw [View.read_apply]
  show V m c main_v7 _ = _
  rw [V_main_v7]
  congr 1
  funext a
  apply Fin.ext
  match a with
  | ⟨0, _⟩ => show win0_15.index t (0 : Fin 2) * 32 + 1 * (y 0).val = (y 0).val; rw [e0]; omega
  | ⟨1, _⟩ => show win0_15.index t (1 : Fin 2) * 16 + 1 * (y 1).val = (y 1).val; rw [e1]; omega
theorem blk16_eq (c : Dev nD) (t : Fin cfg0.N) :
    (iblk m c 16 t : Vec Ideal S16 .f32) = (m ((c : Thread nD τ).loc main_arg16) : S16.Idx → EReal) := by
  have e0 := idx16 t
  funext y
  unfold iblk
  rw [View.read_apply]
  show V m c main_arg16 _ = _
  rw [V_main_arg16]
  congr 1
  funext a
  apply Fin.ext
  match a with
  | ⟨0, _⟩ => show win0_16.index t (0 : Fin 1) * 16 + 1 * (y 0).val = (y 0).val; rw [e0]; omega
theorem blk17_eq (c : Dev nD) (t : Fin cfg0.N) :
    (iblk m c 17 t : Vec Ideal S16x10 .bf16) = (m ((c : Thread nD τ).loc main_arg17) : S16x10.Idx → EReal) := by
  obtain ⟨e0, e1⟩ := idx17 t
  funext y
  unfold iblk
  rw [View.read_apply]
  show V m c main_v8 _ = _
  rw [V_main_v8]
  congr 1
  funext a
  apply Fin.ext
  match a with
  | ⟨0, _⟩ => show win0_17.index t (0 : Fin 2) * 16 + 1 * (y 0).val = (y 0).val; rw [e0]; omega
  | ⟨1, _⟩ => show win0_17.index t (1 : Fin 2) * 10 + 1 * (y 1).val = (y 1).val; rw [e1]; omega
theorem blk18_eq (c : Dev nD) (t : Fin cfg0.N) :
    (iblk m c 18 t : Vec Ideal S10 .f32) = (m ((c : Thread nD τ).loc main_arg18) : S10.Idx → EReal) := by
  have e0 := idx18 t
  funext y
  unfold iblk
  rw [View.read_apply]
  show V m c main_arg18 _ = _
  rw [V_main_arg18]
  congr 1
  funext a
  apply Fin.ext
  match a with
  | ⟨0, _⟩ => show win0_18.index t (0 : Fin 1) * 10 + 1 * (y 0).val = (y 0).val; rw [e0]; omega

/-! ## The result array -/

/-- The network on all 65536 rows of the launch memory's 27 argument arrays. -/
def result (c : Dev nD) : S65536x10.Idx → EReal :=
  net (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21))
    (m ((c : Thread nD τ).loc main_arg22))
    (m ((c : Thread nD τ).loc main_arg23))
    (m ((c : Thread nD τ).loc main_arg24))
    (m ((c : Thread nD τ).loc main_arg25))
    (m ((c : Thread nD τ).loc main_arg26))

/-- An entry of point `t`'s output block sits in the result array at row `2048 t + p`. -/
theorem emb27 (t : Fin cfg0.N) (p : Fin 2048) (q : Fin 10) :
    ((cfg0.win 27).blk t).view.emb (ix2 p q) = (ix2 (rowAt t p) q : S65536x10.Idx) := by
  obtain ⟨e0, e1⟩ := idx27 t
  funext a
  apply Fin.ext
  match a with
  | ⟨0, _⟩ => show win0_27.index t (0 : Fin 2) * 2048 + 1 * p.val = 2048 * t.val + p.val; rw [e0]; omega
  | ⟨1, _⟩ => show win0_27.index t (1 : Fin 2) * 10 + 1 * q.val = q.val; rw [e1]; omega

/-- What point `t` writes back is its rows of `result`. -/
theorem flushed_eq (c : Dev nD) (t : Fin cfg0.N) :
    (dats m 0 c).flushed 27 t = ((cfg0.win 27).blk t).view.read (Elt Ideal) (result m c) := by
  rw [flushed27, body_is_net]
  funext j
  obtain ⟨p, q, rfl⟩ : ∃ (p : Fin 2048) (q : Fin 10), j = ix2 p q := ⟨j 0, j 1, eq_ix2 j⟩
  rw [View.read_apply, emb27 t p q]
  exact net_rowEq (blk0_row m c t p)
    (blk1_eq m c t) (blk2_eq m c t) (blk3_eq m c t) (blk4_eq m c t) (blk5_eq m c t) (blk6_eq m c t) (blk7_eq m c t) (blk8_eq m c t) (blk9_eq m c t) (blk10_eq m c t) (blk11_eq m c t) (blk12_eq m c t) (blk13_eq m c t) (blk14_eq m c t) (blk15_eq m c t) (blk16_eq m c t) (blk17_eq m c t) (blk18_eq m c t)
    (blk19_row m c t p) (blk20_row m c t p) (blk21_row m c t p) (blk22_row m c t p) (blk23_row m c t p) (blk24_row m c t p) (blk25_row m c t p) (blk26_row m c t p) q

/-- An index of the result array is in point `t`'s block iff each coordinate is in the block's range on its axis. -/
theorem mem_blk (t : Fin cfg0.N) (i : S65536x10.Idx) :
    i ∈ ((cfg0.win 27).blk t).view.set ↔ ∀ a : Fin 2, win0_27.index t a * S2048x10.size a ≤ (i a).val
      ∧ (i a).val < win0_27.index t a * S2048x10.size a + S2048x10.size a := by
  show i ∈ ((View.whole main_v9).slice (win0_27.rect t)).set ↔ _
  rw [View.set_slice_whole, Rect.mem_set_unit]
  exact Iff.rfl

/-- Row `r` is in the block of point `r / 2048`: the 32 blocks cover the result array. -/
theorem cover (i : S65536x10.Idx) :
    ∃ t : Fin cfg0.N, (cfg0.win 27).flush t = true ∧ i ∈ ((cfg0.win 27).blk t).view.set := by
  have h0 : (i 0).val < 65536 := (i 0).isLt
  have h1 : (i 1).val < 10 := (i 1).isLt
  have hN : cfg0.N = 32 := N_0
  refine ⟨⟨(i 0).val / 2048, by rw [hN]; omega⟩, flush0_27 _, ?_⟩
  rw [mem_blk]
  obtain ⟨e0, e1⟩ := idx27 ⟨(i 0).val / 2048, by rw [hN]; omega⟩
  intro a
  match a with
  | ⟨0, _⟩ =>
    show win0_27.index _ (0 : Fin 2) * 2048 ≤ (i 0).val ∧ (i 0).val < win0_27.index _ (0 : Fin 2) * 2048 + 2048
    rw [e0]; show (i 0).val / 2048 * 2048 ≤ (i 0).val ∧ (i 0).val < (i 0).val / 2048 * 2048 + 2048; omega
  | ⟨1, _⟩ =>
    show win0_27.index _ (1 : Fin 2) * 10 ≤ (i 1).val ∧ (i 1).val < win0_27.index _ (1 : Fin 2) * 10 + 10
    rw [e1]; omega

/-- So the result array ends holding `result`. -/
theorem final (c : Dev nD) : (dats m 0 c).arrAt 27 cfg0.N = result m c :=
  (dats m 0 c).arrAt_eq_of_cover 27 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun _ h c => ⟨(h c).1.trans (final m c), (h c).2⟩) (run_blocks m ρ)

end Cert.Mlp.Kernel

end
-- ==== Proof.lean ====
/-
  The certificate of the fused nine-layer perceptron kernel against its jnp reference, over the extended reals.

  Both programs compute, row by row, eight hidden layers 256 → 128 → 256 → 512 → 256 → 128 → 64 → 32 → 16 — a dense layer,
  the rectifier, an entrywise mask — and a last dense layer 16 → 10.  The reference spells a hidden layer
  `max (h W + b) 0 * m`; the kernel rounds activations and weights to bf16 on the way into each matrix product (the
  identity on extended reals), accumulates into zero, and spells the rectifier and mask `select (y > 0) (y * m) 0`, which
  is `max y 0 * m` at every extended real, since `0 * m = 0`.  The kernel tiles the 65536 rows into 32 blocks of 2048;
  an entry of the network depends on its own row only, so the blocks it writes back are the rows of the network on the
  whole arrays.  No law used here needs a finite operand, so the precondition is never opened.

  LibDenseLayer: the layer laws for any extents.  MlpSpec: the network.  RefValue: the reference is the network.
  KernelPayload, KernelValue: the kernel's result array is the network.  Here: the five claims.
-/
import proofs.«171082_j61984968016173_2_alg».proof.Defs
import proofs.«171082_j61984968016173_2_alg».proof.Proof.Gen.Kernel
import proofs.«171082_j61984968016173_2_alg».proof.Proof.Gen.KernelIdeal
import proofs.«171082_j61984968016173_2_alg».proof.Proof.Gen.ReferenceIdeal
import proofs.«171082_j61984968016173_2_alg».proof.Proof.Gen.ReferenceIdeal.Run
import proofs.«171082_j61984968016173_2_alg».proof.Proof.Gen.ReferenceIdeal.Read
import proofs.«171082_j61984968016173_2_alg».proof.Proof.Gen.Pre_finite_inputs
import proofs.«171082_j61984968016173_2_alg».proof.Proof.KernelFrameP
import proofs.«171082_j61984968016173_2_alg».proof.Proof.KernelIdealFrameP
import proofs.«171082_j61984968016173_2_alg».proof.Proof.KernelIdealValueP
import proofs.«171082_j61984968016173_2_alg».proof.Proof.RefValue
import proofs.«171082_j61984968016173_2_alg».proof.Proof.KernelValue
import Idealize.ShloMosaic.Adequacy
import Idealize.ShloMosaic.Init

noncomputable section

namespace Cert.Proof

open Idealize.ShloMosaic Idealize.SL.Sem

/-- The word-level kernel terminates without a fault and leaves its arguments as launched. -/
theorem frame_k : Cert.frame_Kernel := fun m ρ _ => Cert.Kernel.GenP.frame m ρ

/-- So does the kernel read over the extended reals. -/
theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the 27 arguments, both programs end with the network on all 65536 rows of those
    arguments in their result arrays. -/
theorem algebraic : Cert.algebraic_KernelIdeal_ReferenceIdeal := by
  intro m ρ m' ρ' _ hagree
  refine ⟨fun c => Cert.Mlp.Kernel.result m c, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26⟩ := hagree c
  exact ((Cert.ReferenceIdeal.Read.val_main_v51_eq _ _ _ _ _ _ _ _ _ _ _ _ _ _ _ _ _ _ _ _ _ _ _ _ _ _ _).symm.trans
    (Cert.Mlp.Ref.result_is_net _ _ _ _ _ _ _ _ _ _ _ _ _ _ _ _ _ _ _ _ _ _ _ _ _ _ _)).trans
    (Cert.Mlp.net_congr h0 h1 h2 h3 h4 h5 h6 h7 h8 h9 h10 h11 h12 h13 h14 h15 h16 h17 h18 h19 h20 h21 h22 h23 h24 h25 h26)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
